-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x1 .f32) (main_arg8 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S10000x128 : Shape := ⟨2, ![10000, 128]⟩
abbrev S10000 : Shape := ⟨1, ![10000]⟩
abbrev S10000x1 : Shape := ⟨2, ![10000, 1]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 108
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S100000x128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S100000, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x1, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x1, .f32⟩
  | .hbm, ⟨100, _⟩ => ⟨S1700000x1, .f32⟩
  | .hbm, ⟨101, _⟩ => ⟨S1700000x1, .f32⟩
  | .hbm, ⟨102, _⟩ => ⟨S_, .f32⟩
  | .hbm, ⟨103, _⟩ => ⟨S100000x1, .f32⟩
  | .hbm, ⟨104, _⟩ => ⟨S1700000x1, .i32⟩
  | .hbm, ⟨105, _⟩ => ⟨S100000x1, .f32⟩
  | .hbm, ⟨106, _⟩ => ⟨S1x1, .f32⟩
  | .hbm, ⟨107, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S128x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S128x1, .f32⟩
  | .local _ .vmem, ⟨27, _⟩ => ⟨S10000x1, .f32⟩
  | .local _ .vmem, ⟨28, _⟩ => ⟨S10000x1, .f32⟩
  | .local _ .vmem, ⟨29, _⟩ => ⟨S10000x1, .f32⟩
  | .local _ .vmem, ⟨30, _⟩ => ⟨S10000x1, .f32⟩
  | .local _ .vmem, ⟨31, _⟩ => ⟨S1x1, .f32⟩
  | .local _ .vmem, ⟨32, _⟩ => ⟨S10000x1, .f32⟩
  | .local _ .vmem, ⟨33, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg2_1 : Ref sig .tc := ⟨.vmem, 18, rfl⟩
abbrev cc4_stg0_0 : Ref sig .tc := ⟨.vmem, 19, rfl⟩
abbrev cc4_stg0_1 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg2_1 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg2_0 : Ref sig .tc := ⟨.vmem, 27, rfl⟩
abbrev cc5_stg2_1 : Ref sig .tc := ⟨.vmem, 28, rfl⟩
abbrev cc6_stg0_0 : Ref sig .tc := ⟨.vmem, 29, rfl⟩
abbrev cc6_stg0_1 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem2_1 : DmaSem sig := 18
abbrev cc4_sem0_0 : DmaSem sig := 19
abbrev cc4_sem0_1 : DmaSem sig := 20
abbrev cc4_sem1_0 : DmaSem sig := 21
abbrev cc4_sem2_0 : DmaSem sig := 22
abbrev cc4_sem2_1 : DmaSem sig := 23
abbrev cc5_sem0_0 : DmaSem sig := 24
abbrev cc5_sem0_1 : DmaSem sig := 25
abbrev cc5_sem1_0 : DmaSem sig := 26
abbrev cc5_sem2_0 : DmaSem sig := 27
abbrev cc5_sem2_1 : DmaSem sig := 28
abbrev cc6_sem0_0 : DmaSem sig := 29
abbrev cc6_sem0_1 : DmaSem sig := 30
abbrev cc6_sem1_0 : DmaSem sig := 31
abbrev cc6_sem2_0 : DmaSem sig := 32
abbrev cc6_sem2_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x1 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  inb_S10000x128_S10000x128_0_0 : ∀ a, (![0, 0] : Fin 2 → Nat) a + S10000x128.size a ≤ S10000x128.size a
  h_S10000x128 : 0 < S10000x128.numel
  reduces_S10000x128_S10000 : S10000x128.Reduces [1] S10000
  shapeCasts_S10000_S10000x1 : S10000.ShapeCasts S10000x1
  broadcasts_S10000x1_S10000x128 : S10000x1.Broadcasts S10000x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x1_S128x1_0_0 : ∀ a, (![0, 0] : Fin 2 → Nat) a + S128x1.size a ≤ S128x1.size a
  h_S128x1 : 0 < S128x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  shapeCasts_S1_S1x1 : S1.ShapeCasts S1x1
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x1_S10000x1_1_0_0_1_n_n_wf : DotDims.WF S10000x128 S128x1 S10000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x1.size a ≤ S128x1.size a
  hwx5_1 : ∀ i : grid5.Coords, EltTy.bits .f32 = 32 ∨ (Rect.block (s := S128x1) S128x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x1.size a ≤ S100000x1.size a
  hwx6_0 : ∀ i : grid6.Coords, EltTy.bits .f32 = 32 ∨ (Rect.block (s := S100000x1) S10000x1.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x1.size a ≤ S1x1.size a
  hwx6_1 : ∀ i : grid6.Coords, EltTy.bits .f32 = 32 ∨ (Rect.block (s := S1x1) S1x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x1.size a ≤ S100000x1.size a
  hwx6_2 : ∀ i : grid6.Coords, EltTy.bits .f32 = 32 ∨ (Rect.block (s := S100000x1) S10000x1.size (cc6_transform_2 i) (hinb6_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v64) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v65) S10000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S10000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78) S1x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S10000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S100000 : Shape := ⟨1, ![100000]⟩
abbrev S100000x1 : Shape := ⟨2, ![100000, 1]⟩
abbrev S1x1600000 : Shape := ⟨2, ![1, 1600000]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩
abbrev S1x1 : Shape := ⟨2, ![1, 1]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S_, .f32⟩
  | .hbm, ⟨10, _⟩ => ⟨S100000, .f32⟩
  | .hbm, ⟨11, _⟩ => ⟨S100000x1, .f32⟩
  | .hbm, ⟨12, _⟩ => ⟨S100000x128, .f32⟩
  | .hbm, ⟨13, _⟩ => ⟨S100000x128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S100000, .i32⟩
  | .hbm, ⟨19, _⟩ => ⟨S1700000, .i32⟩
  | .hbm, ⟨20, _⟩ => ⟨S1700000, .i32⟩
  | .hbm, ⟨21, _⟩ => ⟨S_, .f32⟩
  | .hbm, ⟨22, _⟩ => ⟨S100000, .f32⟩
  | .hbm, ⟨23, _⟩ => ⟨S1700000, .f32⟩
  | .hbm, ⟨24, _⟩ => ⟨S_, .f32⟩
  | .hbm, ⟨25, _⟩ => ⟨S100000, .f32⟩
  | .hbm, ⟨26, _⟩ => ⟨S1700000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x128, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x128, .f32⟩
  | .hbm, ⟨66, _⟩ => ⟨S1700000x1, .f32⟩
  | .hbm, ⟨67, _⟩ => ⟨S1700000x128, .f32⟩
  | .hbm, ⟨68, _⟩ => ⟨S1700000x128, .f32⟩
  | .hbm, ⟨69, _⟩ => ⟨S_, .f32⟩
  | .hbm, ⟨70, _⟩ => ⟨S100000x128, .f32⟩
  | .hbm, ⟨71, _⟩ => ⟨S1700000x1, .i32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x128, .f32⟩
  | .hbm, ⟨89, _⟩ => ⟨S1700000x1, .f32⟩
  | .hbm, ⟨90, _⟩ => ⟨S1700000x128, .f32⟩
  | .hbm, ⟨91, _⟩ => ⟨S1700000x128, .f32⟩
  | .hbm, ⟨92, _⟩ => ⟨S_, .f32⟩
  | .hbm, ⟨93, _⟩ => ⟨S100000x128, .f32⟩
  | .hbm, ⟨94, _⟩ => ⟨S1700000x1, .i32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S100000x128, .f32⟩
  | .hbm, ⟨101, _⟩ => ⟨S100000x128, .f32⟩
  | .hbm, ⟨102, _⟩ => ⟨S100000x1, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x1, .f32⟩
  | .hbm, ⟨112, _⟩ => ⟨S1700000x1, .f32⟩
  | .hbm, ⟨113, _⟩ => ⟨S1700000x1, .f32⟩
  | .hbm, ⟨114, _⟩ => ⟨S_, .f32⟩
  | .hbm, ⟨115, _⟩ => ⟨S100000x1, .f32⟩
  | .hbm, ⟨116, _⟩ => ⟨S1700000x1, .i32⟩
  | .hbm, ⟨117, _⟩ => ⟨S100000x1, .f32⟩
  | .hbm, ⟨118, _⟩ => ⟨S1x1, .f32⟩
  | .hbm, ⟨119, _⟩ => ⟨S100000x1, .f32⟩
  | .hbm, ⟨120, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call1_cst : Ref sig .tc := ⟨.hbm, 76, rfl⟩
abbrev main_call1_v0 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_call2_cst : Ref sig .tc := ⟨.hbm, 99, rfl⟩
abbrev main_call2_v0 : Ref sig .tc := ⟨.hbm, 100, rfl⟩
abbrev main_v71 : Ref sig .tc := ⟨.hbm, 101, rfl⟩
abbrev main_v72 : Ref sig .tc := ⟨.hbm, 102, rfl⟩
abbrev main_c_13 : Ref sig .tc := ⟨.hbm, 103, rfl⟩
abbrev main_v73 : Ref sig .tc := ⟨.hbm, 104, rfl⟩
abbrev main_v74 : Ref sig .tc := ⟨.hbm, 105, rfl⟩
abbrev main_c_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_15 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.KernelRun.lean ====
import proofs.«117698_j34600256536636_1_alg».proof.Proof.Gen.KernelIdeal.Frame

/-!
# The whole run of the kernel program, with its result named

The program is seven kernel launches among stretches of host operations. Its run is read as a fold over the
buffer contents: after each stretch the buffers hold what the host operations compute from what they held before,
and after each launch the launch's arrays hold what its grid points wrote back. Every weakly fair execution terminates,
and at the end the result buffer holds the last stage of that fold (`W13` at the result buffer) while the argument
buffers hold what they were launched with.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault; the result
    buffer ends at the last stage of the fold of buffer contents through the launches and the host stretches, and the
    argument buffers end as launched. -/
theorem run_fold : θ_run defs (onTc (τ := τ) (main (F := F))) ⟨m, fun _ => 0, ρ⟩ (fun r => ∀ c : Dev nD,
      r.2.mem ((c.tc : Thread nD τ).loc main_v79) = W13 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v79 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.KernelIdeal.Whole

end
-- ==== Proof.Rows.lean ====
import Idealize.ShloMosaic.Lib.ValueIdx
import Idealize.ShloMosaic.PureOps.Ideal.Laws

/-!
# Row-wise operations on matrices of extended reals

A graph-convolution layer is built from four row-wise operations on a matrix: dividing every row by the sum of its
entries, multiplying the rows by a weight matrix, adding one row vector to every row, and the same followed by the
positive part. Each of them computes row `r` of its result from row `r` of its argument alone. So a matrix cut into
blocks of consecutive rows can be treated block by block: the operation applied to a block of rows is the same block of
rows of the operation applied to the whole matrix (`normalize_rows`, `times_rows`, `plusRow_rows`, `plusRowPos_rows`).
-/

noncomputable section

namespace Cert.Rows

open Idealize.ShloMosaic Idealize.ShloMosaic.ValueIdx
open scoped BigOperators

/-- A matrix of extended reals with `R` rows and `C` columns. -/
abbrev Mat (R C : Nat) : Type := (⟨2, ![R, C]⟩ : Shape).Idx → EReal

variable {R r K C : Nat}

/-- Every entry divided by the sum of its row. -/
def normalize (X : Mat R C) : Mat R C := fun i => Ideal.div (X i) (∑ k : Fin C, X (ix2 (i 0) k))

/-- The matrix product: entry `(p, q)` is the sum over `k` of `X (p, k) · W (k, q)`. -/
def times (X : Mat R K) (W : Mat K C) : Mat R C := fun i => ∑ k : Fin K, X (ix2 (i 0) k) * W (ix2 k (i 1))

/-- The one-row matrix `b` added to every row. -/
def plusRow (X : Mat R C) (b : Mat 1 C) : Mat R C := fun i => X i + b (ix2 0 (i 1))

/-- The one-row matrix `b` added to every row, then the positive part of every entry. -/
def plusRowPos (X : Mat R C) (b : Mat 1 C) : Mat R C := fun i => max (X i + b (ix2 0 (i 1))) 0

theorem normalize_apply (X : Mat R C) (p : Fin R) (q : Fin C) :
    normalize X (ix2 p q) = Ideal.div (X (ix2 p q)) (∑ k : Fin C, X (ix2 p k)) := rfl

theorem times_apply (X : Mat R K) (W : Mat K C) (p : Fin R) (q : Fin C) :
    times X W (ix2 p q) = ∑ k : Fin K, X (ix2 p k) * W (ix2 k q) := rfl

theorem plusRow_apply (X : Mat R C) (b : Mat 1 C) (p : Fin R) (q : Fin C) :
    plusRow X b (ix2 p q) = X (ix2 p q) + b (ix2 0 q) := rfl

theorem plusRowPos_apply (X : Mat R C) (b : Mat 1 C) (p : Fin R) (q : Fin C) :
    plusRowPos X b (ix2 p q) = max (X (ix2 p q) + b (ix2 0 q)) 0 := rfl

/-! ## Blocks of rows

`x` holds the rows `e 0, e 1, …` of `X`: `x (p, q) = X (e p, q)`. -/

theorem normalize_rows (x : Mat r C) (X : Mat R C) (e : Fin r → Fin R) (h : ∀ p q, x (ix2 p q) = X (ix2 (e p) q))
    (p : Fin r) (q : Fin C) : normalize x (ix2 p q) = normalize X (ix2 (e p) q) := by
  rw [normalize_apply, normalize_apply, h p q]
  exact congrArg _ (Finset.sum_congr rfl fun k _ => h p k)

theorem times_rows (x : Mat r K) (X : Mat R K) (W : Mat K C) (e : Fin r → Fin R) (h : ∀ p k, x (ix2 p k) = X (ix2 (e p) k))
    (p : Fin r) (q : Fin C) : times x W (ix2 p q) = times X W (ix2 (e p) q) := by
  rw [times_apply, times_apply]
  exact Finset.sum_congr rfl fun k _ => by rw [h p k]

theorem plusRow_rows (x : Mat r C) (X : Mat R C) (b : Mat 1 C) (e : Fin r → Fin R) (h : ∀ p q, x (ix2 p q) = X (ix2 (e p) q))
    (p : Fin r) (q : Fin C) : plusRow x b (ix2 p q) = plusRow X b (ix2 (e p) q) := by
  rw [plusRow_apply, plusRow_apply, h p q]

theorem plusRowPos_rows (x : Mat r C) (X : Mat R C) (b : Mat 1 C) (e : Fin r → Fin R) (h : ∀ p q, x (ix2 p q) = X (ix2 (e p) q))
    (p : Fin r) (q : Fin C) : plusRowPos x b (ix2 p q) = plusRowPos X b (ix2 (e p) q) := by
  rw [plusRowPos_apply, plusRowPos_apply, h p q]

end Cert.Rows

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.Payloads.lean ====
import proofs.«117698_j34600256536636_1_alg».proof.Proof.Gen.KernelIdeal.Skeleton
import proofs.«117698_j34600256536636_1_alg».proof.Proof.Rows
import proofs.«117698_j34600256536636_1_alg».proof.Proof.LibPlainDot
import Idealize.ShloMosaic.Lib.Pipeline.Value
import Idealize.ShloMosaic.Lib.ValueIdx
import Idealize.ShloMosaic.PureOps.Ideal.Laws

/-!
# What each kernel body computes from the blocks it loads

Over the extended reals, where a change of float format is the identity:
the normalization body divides every entry of its block by the sum of the entry's row (`normalize_pay`);
a matrix-product body multiplies its block of rows by the whole weight matrix, the accumulator starting at zero
(`times_pay_wide`, `times_pay_col`); a bias body adds the one-row bias to every row of its block, and the two hidden
layers' bodies then take the positive part (`plusRowPos_pay`, `plusRow_pay`).
-/

noncomputable section

namespace Cert.KernelIdeal.Payloads

open Cert.KernelIdeal Cert.KernelIdeal.Gen Idealize.ShloMosaic Idealize.ShloMosaic.ValueIdx Cert.Rows
open scoped BigOperators

/-- A row sum, kept as a column and spread back over the row: the entry's row summed. -/
theorem rowSum_spread (x0 : FVec Ideal S10000x128 .f32) (p : Fin 10000) (q : Fin 128) :
    broadcastTo S10000x128 (shapeCast S10000x1
        (multiReduction .add [1] S10000 x0 0x00000000#32 reduces_S10000x128_S10000 (.inl rfl) rfl) shapeCasts_S10000_S10000x1)
      broadcasts_S10000x1_S10000x128 (ix2 p q) = ∑ k : Fin 128, x0 (ix2 p k) := by
  refine (broadcastTo_apply _ broadcasts_S10000x1_S10000x128 (ix2 p q) (ix2 p (0 : Fin 1)) (fun a => ?_)).trans ?_
  · match a with
    | ⟨0, _⟩ => show p.val = if (10000 : Nat) = 1 then 0 else p.val; rw [if_neg (by decide)]
    | ⟨1, _⟩ => show 0 = if (1 : Nat) = 1 then 0 else q.val; rw [if_pos rfl]
  refine (shapeCast_apply _ shapeCasts_S10000_S10000x1 (ix2 p (0 : Fin 1)) (ix1 p) ?_).trans ?_
  · rewrite [Shape.rowMajor_val_two, Shape.rowMajor_val_one]
    show p.val = p.val * 1 + 0
    omega
  refine (Ideal.multiReduction_add_single x0 0x00000000#32 reduces_S10000x128_S10000 (.inl rfl) rfl (ix1 p)).trans ?_
  exact Finset.sum_congr rfl fun k _ => congrArg x0 (funext fun a => Fin.ext (by
    match a with
    | ⟨0, _⟩ => rfl
    | ⟨1, _⟩ => rfl))

/-- The normalization body: every entry of the block divided by the sum of its row. -/
theorem normalize_pay (x0 : FVec Ideal S10000x128 .f32) : k0_pay1 (F := Ideal) x0 = normalize x0 := by
  funext j
  obtain ⟨p, q, rfl⟩ : ∃ (p : Fin 10000) (q : Fin 128), j = ix2 p q := ⟨j 0, j 1, eq_ix2 j⟩
  unfold k0_pay1
  refine (divf_apply _ _ (ix2 p q)).trans ?_
  rw [normalize_apply]
  exact congrArg (Ideal.div (x0 (ix2 p q))) (rowSum_spread x0 p q)

/-- A matrix-product body on a block of rows and a square weight matrix: the block times the matrix. -/
theorem times_pay_wide1 (x0 : FVec Ideal S10000x128 .f32) (w : FVec Ideal S128x128 .f32) : k1_pay1 (F := Ideal) x0 w = times x0 w := by
  funext j
  obtain ⟨p, q, rfl⟩ : ∃ (p : Fin 10000) (q : Fin 128), j = ix2 p q := ⟨j 0, j 1, eq_ix2 j⟩
  unfold k1_pay1
  refine (LibPlainDot.matmul_zero_apply dot_S10000x128_S128x128_S10000x128_1_0_0_1_n_n ⟨rfl, rfl, rfl, rfl, rfl, rfl⟩ none _ _ p q).trans ?_
  rw [times_apply]
  refine Finset.sum_congr rfl fun k _ => ?_
  rw [truncf_apply, truncf_apply, shapeCast_self]

/-- The second layer's matrix-product body: the same. -/
theorem times_pay_wide3 (x0 : FVec Ideal S10000x128 .f32) (w : FVec Ideal S128x128 .f32) : k3_pay1 (F := Ideal) x0 w = times x0 w := by
  funext j
  obtain ⟨p, q, rfl⟩ : ∃ (p : Fin 10000) (q : Fin 128), j = ix2 p q := ⟨j 0, j 1, eq_ix2 j⟩
  unfold k3_pay1
  refine (LibPlainDot.matmul_zero_apply dot_S10000x128_S128x128_S10000x128_1_0_0_1_n_n ⟨rfl, rfl, rfl, rfl, rfl, rfl⟩ none _ _ p q).trans ?_
  rw [times_apply]
  refine Finset.sum_congr rfl fun k _ => ?_
  rw [truncf_apply, truncf_apply, shapeCast_self]

/-- The last layer's matrix-product body, onto one column: the block times the one-column matrix. -/
theorem times_pay_col (x0 : FVec Ideal S10000x128 .f32) (w : FVec Ideal S128x1 .f32) : k5_pay1 (F := Ideal) x0 w = times x0 w := by
  funext j
  obtain ⟨p, q, rfl⟩ : ∃ (p : Fin 10000) (q : Fin 1), j = ix2 p q := ⟨j 0, j 1, eq_ix2 j⟩
  unfold k5_pay1
  refine (LibPlainDot.matmul_zero_apply dot_S10000x128_S128x1_S10000x1_1_0_0_1_n_n ⟨rfl, rfl, rfl, rfl, rfl, rfl⟩ none _ _ p q).trans ?_
  rw [times_apply]
  refine Finset.sum_congr rfl fun k _ => ?_
  rw [truncf_apply, truncf_apply, shapeCast_self]

/-- A one-row vector spread over the rows of a block reads its entry of the column. -/
theorem row_spread_wide (b : FVec Ideal S1x128 .f32) (p : Fin 10000) (q : Fin 128) :
    broadcastTo S10000x128 b broadcasts_S1x128_S10000x128 (ix2 p q) = b (ix2 (0 : Fin 1) q) := by
  refine broadcastTo_apply _ broadcasts_S1x128_S10000x128 (ix2 p q) (ix2 (0 : Fin 1) q) (fun a => ?_)
  match a with
  | ⟨0, _⟩ => show 0 = if (1 : Nat) = 1 then 0 else p.val; rw [if_pos rfl]
  | ⟨1, _⟩ => show q.val = if (128 : Nat) = 1 then 0 else q.val; rw [if_neg (by decide)]

/-- The same for a block of one column. -/
theorem row_spread_col (b : FVec Ideal S1x1 .f32) (p : Fin 10000) (q : Fin 1) :
    broadcastTo S10000x1 b broadcasts_S1x1_S10000x1 (ix2 p q) = b (ix2 (0 : Fin 1) q) := by
  refine broadcastTo_apply _ broadcasts_S1x1_S10000x1 (ix2 p q) (ix2 (0 : Fin 1) q) (fun a => ?_)
  match a with
  | ⟨0, _⟩ => show 0 = if (1 : Nat) = 1 then 0 else p.val; rw [if_pos rfl]
  | ⟨1, _⟩ => show q.val = if (1 : Nat) = 1 then 0 else q.val; rw [if_pos rfl]; exact Nat.lt_one_iff.mp q.isLt

/-- The first hidden layer's bias body: the bias row added to every row of the block, then the positive part. -/
theorem plusRowPos_pay2 (x0 : FVec Ideal S10000x128 .f32) (b : FVec Ideal S1x128 .f32) : k2_pay1 (F := Ideal) x0 b = plusRowPos x0 b := by
  funext j
  obtain ⟨p, q, rfl⟩ : ∃ (p : Fin 10000) (q : Fin 128), j = ix2 p q := ⟨j 0, j 1, eq_ix2 j⟩
  unfold k2_pay1
  refine (maximumf_apply _ _ (ix2 p q)).trans ?_
  rw [plusRowPos_apply, addf_apply, shapeCast_self, shapeCast_self, row_spread_wide, broadcast_apply]
  exact congrArg (max _) Ideal.ofBits_zero_f32

/-- The second hidden layer's bias body: the same. -/
theorem plusRowPos_pay4 (x0 : FVec Ideal S10000x128 .f32) (b : FVec Ideal S1x128 .f32) : k4_pay1 (F := Ideal) x0 b = plusRowPos x0 b := by
  funext j
  obtain ⟨p, q, rfl⟩ : ∃ (p : Fin 10000) (q : Fin 128), j = ix2 p q := ⟨j 0, j 1, eq_ix2 j⟩
  unfold k4_pay1
  refine (maximumf_apply _ _ (ix2 p q)).trans ?_
  rw [plusRowPos_apply, addf_apply, shapeCast_self, shapeCast_self, row_spread_wide, broadcast_apply]
  exact congrArg (max _) Ideal.ofBits_zero_f32

/-- The output layer's bias body: the one-entry bias added to every row of the one-column block. -/
theorem plusRow_pay (x0 : FVec Ideal S10000x1 .f32) (b : FVec Ideal S1x1 .f32) : k6_pay1 (F := Ideal) x0 b = plusRow x0 b := by
  funext j
  obtain ⟨p, q, rfl⟩ : ∃ (p : Fin 10000) (q : Fin 1), j = ix2 p q := ⟨j 0, j 1, eq_ix2 j⟩
  unfold k6_pay1
  refine (addf_apply _ _ (ix2 p q)).trans ?_
  rw [plusRow_apply, shapeCast_self, shapeCast_self, row_spread_col]

end Cert.KernelIdeal.Payloads

end
-- ==== Proof.Region0.lean ====
import proofs.«117698_j34600256536636_1_alg».proof.Proof.Gen.KernelIdeal.Frame
import proofs.«117698_j34600256536636_1_alg».proof.Proof.Payloads
import Idealize.ShloMosaic.Lib.Pipeline.Value

/-!
# The normalization launch: the array it leaves

The launch walks ten blocks of 10000 consecutive rows of the feature matrix. At block `t` the body reads rows
`10000 t … 10000 t + 9999`, divides every entry by the sum of its row, and the block is written back to the same rows of
the result. Dividing by the row sum looks at one row at a time, so the ten blocks together are the whole matrix with every
row divided by its sum, whatever the buffers held when the launch was entered.
-/

set_option maxRecDepth 16384

noncomputable section

namespace Cert.KernelIdeal.Stages

open Cert.KernelIdeal Cert.KernelIdeal.Gen Cert.KernelIdeal.Payloads Cert.Rows
open Idealize.ShloMosaic Idealize.ShloMosaic.TcCoe Idealize.ShloMosaic.ValueIdx Idealize.SL.Sem
open Idealize.ShloMosaic.Pipeline (Dat)

/-- A block's offsets inside its staging buffer are all zero. -/
theorem hz : (![0, 0] : Fin 2 → Nat) = fun _ => 0 := funext fun a => by fin_cases a <;> rfl

/-- Row `p` of the `t`-th block of 10000 rows is row `10000 t + p` of the matrix. -/
def rowOf (t : Nat) (ht : t < 10) (p : Fin 10000) : Fin 100000 := ⟨t * 10000 + p.val, by have := p.isLt; omega⟩

variable (V : (c : Dev nD) → (b : Ref sig .tc) → Buf (Elt Ideal) ((c : Thread nD τ).loc b))

/-- Both windows of the launch sit on block row `t`, block column 0, at grid point `t`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem lt0 (t : Fin cfg0.N) : t.val < 10 := lt_of_lt_of_eq t.isLt (show cfg0.N = 10 from N_0)

/-- The input block at point `t` holds rows `10000 t …` of the feature matrix as the launch finds it. -/
theorem iblk0_apply (c : Dev nD) (t : Fin cfg0.N) (p : Fin 10000) (q : Fin 128) :
    (iblk0 V c 0 t : Mat 10000 128) (ix2 p q) = (V c main_arg0 : Mat 100000 128) (ix2 (rowOf t.val (lt0 t) p) q) := by
  obtain ⟨e0, e1, -, -⟩ := idx0 t
  unfold iblk0
  rw [View.read_apply]
  show V c main_arg0 _ = V c main_arg0 _
  congr 1
  funext a
  apply Fin.ext
  match a with
  | ⟨0, _⟩ => show win0_0.index t (0 : Fin 2) * 10000 + 1 * p.val = t.val * 10000 + p.val; rw [e0]; omega
  | ⟨1, _⟩ => show win0_0.index t (1 : Fin 2) * 128 + 1 * q.val = q.val; rw [e1]; omega

/-- Where an entry of the output block at point `t` sits in the result array. -/
theorem emb0 (t : Fin cfg0.N) (p : Fin 10000) (q : Fin 128) :
    ((cfg0.win 1).blk t).view.emb (ix2 p q) = (ix2 (rowOf t.val (lt0 t) p) q : (⟨2, ![100000, 128]⟩ : Shape).Idx) := by
  obtain ⟨-, -, e0, e1⟩ := idx0 t
  funext a
  apply Fin.ext
  match a with
  | ⟨0, _⟩ => show win0_1.index t (0 : Fin 2) * 10000 + 1 * p.val = t.val * 10000 + p.val; rw [e0]; omega
  | ⟨1, _⟩ => show win0_1.index t (1 : Fin 2) * 128 + 1 * q.val = q.val; rw [e1]; omega

/-- What point `t` writes back is block `t` of the row-normalized feature matrix. -/
theorem flushed0 (c : Dev nD) (t : Fin cfg0.N) :
    (dat0 V c).flushed 1 t = ((cfg0.win 1).blk t).view.read (Elt Ideal) (normalize (V c main_arg0 : Mat 100000 128)) := by
  show (cfg0.win 1).cut (grid0.coords t) ((dat0 V c).after 1 t) = _
  rw [after0_1]
  unfold out0_1
  rw [View.canon_unit_zero hz]
  simp only [View.ld_unit_zero (S := S10000x128) hz]
  rw [normalize_pay]
  funext j
  obtain ⟨p, q, rfl⟩ : ∃ (p : Fin 10000) (q : Fin 128), j = ix2 p q := ⟨j 0, j 1, eq_ix2 j⟩
  show normalize (iblk0 V c 0 t : Mat 10000 128) (ix2 p q) = normalize (V c main_arg0 : Mat 100000 128) (((cfg0.win 1).blk t).view.emb (ix2 p q))
  rw [emb0 t p q]
  exact normalize_rows _ _ _ (iblk0_apply V c t) p q

/-- The ten blocks cover the result array: row `r` lies in block `r / 10000`. -/
theorem cover0 (i : (⟨2, ![100000, 128]⟩ : Shape).Idx) :
    ∃ t : Fin cfg0.N, (cfg0.win 1).flush t = true ∧ i ∈ ((cfg0.win 1).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨-, -, e0, e1⟩ := idx0 t
  have ht : t.val = (i 0).val / 10000 := rfl
  refine ⟨t, flush0_1 t, ?_⟩
  show i ∈ ((View.whole main_v0).slice (win0_1.rect t)).set
  rw [View.set_slice_whole, Rect.mem_set_unit]
  intro a
  match a with
  | ⟨0, _⟩ => show win0_1.index t (0 : Fin 2) * 10000 ≤ (i 0).val ∧ (i 0).val < win0_1.index t (0 : Fin 2) * 10000 + 10000; rw [e0, ht]; omega
  | ⟨1, _⟩ => show win0_1.index t (1 : Fin 2) * 128 ≤ (i 1).val ∧ (i 1).val < win0_1.index t (1 : Fin 2) * 128 + 128; rw [e1]; omega

/-- After the launch the result array is the feature matrix, as the launch found it, with every row divided by its sum. -/
theorem final0 (c : Dev nD) : (dat0 V c).arrAt 1 cfg0.N = normalize (V c main_arg0 : Mat 100000 128) :=
  (dat0 V c).arrAt_eq_of_cover 1 _ (fun t _ => flushed0 V c t) (cover0)

end Cert.KernelIdeal.Stages

end
-- ==== Proof.Region1.lean ====
import proofs.«117698_j34600256536636_1_alg».proof.Proof.Gen.KernelIdeal.Frame
import proofs.«117698_j34600256536636_1_alg».proof.Proof.Payloads
import proofs.«117698_j34600256536636_1_alg».proof.Proof.Region0
import Idealize.ShloMosaic.Lib.Pipeline.Value

/-!
# The first layer's matrix-product launch: the array it leaves

The launch walks ten blocks of 10000 consecutive rows of the normalized feature matrix. At block `t` the body reads those rows and the
whole weight matrix, multiplies them (the accumulator starts at zero and the change of float format is the identity over the
extended reals), and the product is written back to the same rows of the result. Row `r` of a matrix product depends on
row `r` of the left factor only, so the ten blocks together are the product of the whole matrix with the weights.
-/

set_option maxRecDepth 16384

noncomputable section

namespace Cert.KernelIdeal.Stages

open Cert.KernelIdeal Cert.KernelIdeal.Gen Cert.KernelIdeal.Payloads Cert.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- At grid point `t` the row windows sit on block row `t` and the small operand's window on its only block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lt1 (t : Fin cfg1.N) : t.val < 10 := lt_of_lt_of_eq t.isLt (show cfg1.N = 10 from N_1)

/-- The row operand's block at point `t` holds rows `10000 t …` of its array as the launch finds it. -/
theorem iblk1_rows (c : Dev nD) (t : Fin cfg1.N) (p : Fin 10000) (q : Fin 128) :
    (iblk1 V c 0 t : Mat 10000 128) (ix2 p q) = (V c main_v0 : Mat 100000 128) (ix2 (rowOf t.val (lt1 t) p) q) := by
  obtain ⟨e0, e1, -, -, -, -⟩ := idx1 t
  unfold iblk1
  rw [View.read_apply]
  show V c main_v0 _ = V c main_v0 _
  congr 1
  funext a
  apply Fin.ext
  match a with
  | ⟨0, _⟩ => show win1_0.index t (0 : Fin 2) * 10000 + 1 * p.val = t.val * 10000 + p.val; rw [e0]; omega
  | ⟨1, _⟩ => show win1_0.index t (1 : Fin 2) * 128 + 1 * q.val = q.val; rw [e1]; omega

/-- The small operand's one block is the whole of its array. -/
theorem iblk1_small (c : Dev nD) (t : Fin cfg1.N) : (iblk1 V c 1 t : Mat 128 128) = (V c main_arg3 : Mat 128 128) := by
  obtain ⟨-, -, e0, e1, -, -⟩ := idx1 t
  funext j
  obtain ⟨a, b, rfl⟩ : ∃ (a : Fin 128) (b : Fin 128), j = ix2 a b := ⟨j 0, j 1, eq_ix2 j⟩
  unfold iblk1
  rw [View.read_apply]
  show V c main_arg3 _ = V c main_arg3 _
  congr 1
  funext d
  apply Fin.ext
  match d with
  | ⟨0, _⟩ => show win1_1.index t (0 : Fin 2) * 128 + 1 * a.val = a.val; rw [e0]; omega
  | ⟨1, _⟩ => show win1_1.index t (1 : Fin 2) * 128 + 1 * b.val = b.val; rw [e1]; omega

/-- Where an entry of the output block at point `t` sits in the result array. -/
theorem emb1 (t : Fin cfg1.N) (p : Fin 10000) (q : Fin 128) :
    ((cfg1.win 2).blk t).view.emb (ix2 p q) = (ix2 (rowOf t.val (lt1 t) p) q : (⟨2, ![100000, 128]⟩ : Shape).Idx) := by
  obtain ⟨-, -, -, -, e0, e1⟩ := idx1 t
  funext a
  apply Fin.ext
  match a with
  | ⟨0, _⟩ => show win1_2.index t (0 : Fin 2) * 10000 + 1 * p.val = t.val * 10000 + p.val; rw [e0]; omega
  | ⟨1, _⟩ => show win1_2.index t (1 : Fin 2) * 128 + 1 * q.val = q.val; rw [e1]; omega

/-- What point `t` writes back is block `t` of the whole-array result. -/
theorem flushed1 (c : Dev nD) (t : Fin cfg1.N) :
    (dat1 V c).flushed 2 t = ((cfg1.win 2).blk t).view.read (Elt Ideal)
      (times (V c main_v0 : Mat 100000 128) (V c main_arg3 : Mat 128 128)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x128) hz]
  rw [times_pay_wide1]
  funext j
  obtain ⟨p, q, rfl⟩ : ∃ (p : Fin 10000) (q : Fin 128), j = ix2 p q := ⟨j 0, j 1, eq_ix2 j⟩
  show times (iblk1 V c 0 t : Mat 10000 128) (iblk1 V c 1 t : Mat 128 128) (ix2 p q)
    = times (V c main_v0 : Mat 100000 128) (V c main_arg3 : Mat 128 128) (((cfg1.win 2).blk t).view.emb (ix2 p q))
  rw [emb1 t p q, iblk1_small V c t]
  exact times_rows _ _ _ _ (iblk1_rows V c t) p q

/-- The ten blocks cover the result array: row `r` lies in block `r / 10000`. -/
theorem cover1 (i : (⟨2, ![100000, 128]⟩ : Shape).Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  obtain ⟨-, -, -, -, e0, e1⟩ := idx1 t
  have ht : t.val = (i 0).val / 10000 := rfl
  refine ⟨t, flush1_2 t, ?_⟩
  show i ∈ ((View.whole main_v33).slice (win1_2.rect t)).set
  rw [View.set_slice_whole, Rect.mem_set_unit]
  intro a
  match a with
  | ⟨0, _⟩ => show win1_2.index t (0 : Fin 2) * 10000 ≤ (i 0).val ∧ (i 0).val < win1_2.index t (0 : Fin 2) * 10000 + 10000; rw [e0, ht]; omega
  | ⟨1, _⟩ => show win1_2.index t (1 : Fin 2) * 128 ≤ (i 1).val ∧ (i 1).val < win1_2.index t (1 : Fin 2) * 128 + 128; rw [e1]; omega

/-- After the launch the result array is the product of the launch's row operand, as found, with its weight matrix. -/
theorem final1 (c : Dev nD) : (dat1 V c).arrAt 2 cfg1.N = times (V c main_v0 : Mat 100000 128) (V c main_arg3 : Mat 128 128) :=
  (dat1 V c).arrAt_eq_of_cover 2 _ (fun t _ => flushed1 V c t) (cover1)

end Cert.KernelIdeal.Stages

end
-- ==== Proof.Region2.lean ====
import proofs.«117698_j34600256536636_1_alg».proof.Proof.Gen.KernelIdeal.Frame
import proofs.«117698_j34600256536636_1_alg».proof.Proof.Payloads
import proofs.«117698_j34600256536636_1_alg».proof.Proof.Region0
import Idealize.ShloMosaic.Lib.Pipeline.Value

/-!
# The first layer's bias launch: the array it leaves

The launch walks ten blocks of 10000 consecutive rows of the first layer's aggregated messages. At block `t` the body reads those rows and the
bias, held as a matrix of one row, adds the bias to every row and takes the positive part, and writes the block back to the same rows of the result.
The operation treats every row alone, so the ten blocks together are the operation applied to the whole matrix.
-/

set_option maxRecDepth 16384

noncomputable section

namespace Cert.KernelIdeal.Stages

open Cert.KernelIdeal Cert.KernelIdeal.Gen Cert.KernelIdeal.Payloads Cert.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- At grid point `t` the row windows sit on block row `t` and the small operand's window on its only block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lt2 (t : Fin cfg2.N) : t.val < 10 := lt_of_lt_of_eq t.isLt (show cfg2.N = 10 from N_2)

/-- The row operand's block at point `t` holds rows `10000 t …` of its array as the launch finds it. -/
theorem iblk2_rows (c : Dev nD) (t : Fin cfg2.N) (p : Fin 10000) (q : Fin 128) :
    (iblk2 V c 0 t : Mat 10000 128) (ix2 p q) = (V c main_v46 : Mat 100000 128) (ix2 (rowOf t.val (lt2 t) p) q) := by
  obtain ⟨e0, e1, -, -, -, -⟩ := idx2 t
  unfold iblk2
  rw [View.read_apply]
  show V c main_v46 _ = V c main_v46 _
  congr 1
  funext a
  apply Fin.ext
  match a with
  | ⟨0, _⟩ => show win2_0.index t (0 : Fin 2) * 10000 + 1 * p.val = t.val * 10000 + p.val; rw [e0]; omega
  | ⟨1, _⟩ => show win2_0.index t (1 : Fin 2) * 128 + 1 * q.val = q.val; rw [e1]; omega

/-- The small operand's one block is the whole of its array. -/
theorem iblk2_small (c : Dev nD) (t : Fin cfg2.N) : (iblk2 V c 1 t : Mat 1 128) = (V c main_v47 : Mat 1 128) := by
  obtain ⟨-, -, e0, e1, -, -⟩ := idx2 t
  funext j
  obtain ⟨a, b, rfl⟩ : ∃ (a : Fin 1) (b : Fin 128), j = ix2 a b := ⟨j 0, j 1, eq_ix2 j⟩
  unfold iblk2
  rw [View.read_apply]
  show V c main_v47 _ = V c main_v47 _
  congr 1
  funext d
  apply Fin.ext
  match d with
  | ⟨0, _⟩ => show win2_1.index t (0 : Fin 2) * 1 + 1 * a.val = a.val; rw [e0]; omega
  | ⟨1, _⟩ => show win2_1.index t (1 : Fin 2) * 128 + 1 * b.val = b.val; rw [e1]; omega

/-- Where an entry of the output block at point `t` sits in the result array. -/
theorem emb2 (t : Fin cfg2.N) (p : Fin 10000) (q : Fin 128) :
    ((cfg2.win 2).blk t).view.emb (ix2 p q) = (ix2 (rowOf t.val (lt2 t) p) q : (⟨2, ![100000, 128]⟩ : Shape).Idx) := by
  obtain ⟨-, -, -, -, e0, e1⟩ := idx2 t
  funext a
  apply Fin.ext
  match a with
  | ⟨0, _⟩ => show win2_2.index t (0 : Fin 2) * 10000 + 1 * p.val = t.val * 10000 + p.val; rw [e0]; omega
  | ⟨1, _⟩ => show win2_2.index t (1 : Fin 2) * 128 + 1 * q.val = q.val; rw [e1]; omega

/-- What point `t` writes back is block `t` of the whole-array result. -/
theorem flushed2 (c : Dev nD) (t : Fin cfg2.N) :
    (dat2 V c).flushed 2 t = ((cfg2.win 2).blk t).view.read (Elt Ideal)
      (plusRowPos (V c main_v46 : Mat 100000 128) (V c main_v47 : Mat 1 128)) := by
  show (cfg2.win 2).cut (grid2.coords t) ((dat2 V c).after 2 t) = _
  rw [after2_2]
  unfold out2_2
  rw [View.canon_unit_zero hz]
  simp only [View.ld_unit_zero (S := S10000x128) hz, View.ld_unit_zero (S := S1x128) hz]
  rw [plusRowPos_pay2]
  funext j
  obtain ⟨p, q, rfl⟩ : ∃ (p : Fin 10000) (q : Fin 128), j = ix2 p q := ⟨j 0, j 1, eq_ix2 j⟩
  show plusRowPos (iblk2 V c 0 t : Mat 10000 128) (iblk2 V c 1 t : Mat 1 128) (ix2 p q)
    = plusRowPos (V c main_v46 : Mat 100000 128) (V c main_v47 : Mat 1 128) (((cfg2.win 2).blk t).view.emb (ix2 p q))
  rw [emb2 t p q, iblk2_small V c t]
  exact plusRowPos_rows _ _ _ _ (iblk2_rows V c t) p q

/-- The ten blocks cover the result array: row `r` lies in block `r / 10000`. -/
theorem cover2 (i : (⟨2, ![100000, 128]⟩ : Shape).Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  let t : Fin cfg2.N := ⟨(i 0).val / 10000, by rw [hN]; omega⟩
  obtain ⟨-, -, -, -, e0, e1⟩ := idx2 t
  have ht : t.val = (i 0).val / 10000 := rfl
  refine ⟨t, flush2_2 t, ?_⟩
  show i ∈ ((View.whole main_v48).slice (win2_2.rect t)).set
  rw [View.set_slice_whole, Rect.mem_set_unit]
  intro a
  match a with
  | ⟨0, _⟩ => show win2_2.index t (0 : Fin 2) * 10000 ≤ (i 0).val ∧ (i 0).val < win2_2.index t (0 : Fin 2) * 10000 + 10000; rw [e0, ht]; omega
  | ⟨1, _⟩ => show win2_2.index t (1 : Fin 2) * 128 ≤ (i 1).val ∧ (i 1).val < win2_2.index t (1 : Fin 2) * 128 + 128; rw [e1]; omega

/-- After the launch the result array is the aggregated matrix, as found, plus the bias row, positive part taken. -/
theorem final2 (c : Dev nD) : (dat2 V c).arrAt 2 cfg2.N = plusRowPos (V c main_v46 : Mat 100000 128) (V c main_v47 : Mat 1 128) :=
  (dat2 V c).arrAt_eq_of_cover 2 _ (fun t _ => flushed2 V c t) (cover2)

end Cert.KernelIdeal.Stages

end
-- ==== Proof.Region3.lean ====
import proofs.«117698_j34600256536636_1_alg».proof.Proof.Gen.KernelIdeal.Frame
import proofs.«117698_j34600256536636_1_alg».proof.Proof.Payloads
import proofs.«117698_j34600256536636_1_alg».proof.Proof.Region0
import Idealize.ShloMosaic.Lib.Pipeline.Value

/-!
# The second layer's matrix-product launch: the array it leaves

The launch walks ten blocks of 10000 consecutive rows of the first hidden layer. At block `t` the body reads those rows and the
whole weight matrix, multiplies them (the accumulator starts at zero and the change of float format is the identity over the
extended reals), and the product is written back to the same rows of the result. Row `r` of a matrix product depends on
row `r` of the left factor only, so the ten blocks together are the product of the whole matrix with the weights.
-/

set_option maxRecDepth 16384

noncomputable section

namespace Cert.KernelIdeal.Stages

open Cert.KernelIdeal Cert.KernelIdeal.Gen Cert.KernelIdeal.Payloads Cert.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- At grid point `t` the row windows sit on block row `t` and the small operand's window on its only block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem lt3 (t : Fin cfg3.N) : t.val < 10 := lt_of_lt_of_eq t.isLt (show cfg3.N = 10 from N_3)

/-- The row operand's block at point `t` holds rows `10000 t …` of its array as the launch finds it. -/
theorem iblk3_rows (c : Dev nD) (t : Fin cfg3.N) (p : Fin 10000) (q : Fin 128) :
    (iblk3 V c 0 t : Mat 10000 128) (ix2 p q) = (V c main_v48 : Mat 100000 128) (ix2 (rowOf t.val (lt3 t) p) q) := by
  obtain ⟨e0, e1, -, -, -, -⟩ := idx3 t
  unfold iblk3
  rw [View.read_apply]
  show V c main_v48 _ = V c main_v48 _
  congr 1
  funext a
  apply Fin.ext
  match a with
  | ⟨0, _⟩ => show win3_0.index t (0 : Fin 2) * 10000 + 1 * p.val = t.val * 10000 + p.val; rw [e0]; omega
  | ⟨1, _⟩ => show win3_0.index t (1 : Fin 2) * 128 + 1 * q.val = q.val; rw [e1]; omega

/-- The small operand's one block is the whole of its array. -/
theorem iblk3_small (c : Dev nD) (t : Fin cfg3.N) : (iblk3 V c 1 t : Mat 128 128) = (V c main_arg5 : Mat 128 128) := by
  obtain ⟨-, -, e0, e1, -, -⟩ := idx3 t
  funext j
  obtain ⟨a, b, rfl⟩ : ∃ (a : Fin 128) (b : Fin 128), j = ix2 a b := ⟨j 0, j 1, eq_ix2 j⟩
  unfold iblk3
  rw [View.read_apply]
  show V c main_arg5 _ = V c main_arg5 _
  congr 1
  funext d
  apply Fin.ext
  match d with
  | ⟨0, _⟩ => show win3_1.index t (0 : Fin 2) * 128 + 1 * a.val = a.val; rw [e0]; omega
  | ⟨1, _⟩ => show win3_1.index t (1 : Fin 2) * 128 + 1 * b.val = b.val; rw [e1]; omega

/-- Where an entry of the output block at point `t` sits in the result array. -/
theorem emb3 (t : Fin cfg3.N) (p : Fin 10000) (q : Fin 128) :
    ((cfg3.win 2).blk t).view.emb (ix2 p q) = (ix2 (rowOf t.val (lt3 t) p) q : (⟨2, ![100000, 128]⟩ : Shape).Idx) := by
  obtain ⟨-, -, -, -, e0, e1⟩ := idx3 t
  funext a
  apply Fin.ext
  match a with
  | ⟨0, _⟩ => show win3_2.index t (0 : Fin 2) * 10000 + 1 * p.val = t.val * 10000 + p.val; rw [e0]; omega
  | ⟨1, _⟩ => show win3_2.index t (1 : Fin 2) * 128 + 1 * q.val = q.val; rw [e1]; omega

/-- What point `t` writes back is block `t` of the whole-array result. -/
theorem flushed3 (c : Dev nD) (t : Fin cfg3.N) :
    (dat3 V c).flushed 2 t = ((cfg3.win 2).blk t).view.read (Elt Ideal)
      (times (V c main_v48 : Mat 100000 128) (V c main_arg5 : Mat 128 128)) := by
  show (cfg3.win 2).cut (grid3.coords t) ((dat3 V c).after 2 t) = _
  rw [after3_2]
  unfold out3_2
  rw [View.canon_unit_zero hz]
  simp only [View.ld_unit_zero (S := S10000x128) hz, View.ld_unit_zero (S := S128x128) hz]
  rw [times_pay_wide3]
  funext j
  obtain ⟨p, q, rfl⟩ : ∃ (p : Fin 10000) (q : Fin 128), j = ix2 p q := ⟨j 0, j 1, eq_ix2 j⟩
  show times (iblk3 V c 0 t : Mat 10000 128) (iblk3 V c 1 t : Mat 128 128) (ix2 p q)
    = times (V c main_v48 : Mat 100000 128) (V c main_arg5 : Mat 128 128) (((cfg3.win 2).blk t).view.emb (ix2 p q))
  rw [emb3 t p q, iblk3_small V c t]
  exact times_rows _ _ _ _ (iblk3_rows V c t) p q

/-- The ten blocks cover the result array: row `r` lies in block `r / 10000`. -/
theorem cover3 (i : (⟨2, ![100000, 128]⟩ : Shape).Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := N_3
  let t : Fin cfg3.N := ⟨(i 0).val / 10000, by rw [hN]; omega⟩
  obtain ⟨-, -, -, -, e0, e1⟩ := idx3 t
  have ht : t.val = (i 0).val / 10000 := rfl
  refine ⟨t, flush3_2 t, ?_⟩
  show i ∈ ((View.whole main_v49).slice (win3_2.rect t)).set
  rw [View.set_slice_whole, Rect.mem_set_unit]
  intro a
  match a with
  | ⟨0, _⟩ => show win3_2.index t (0 : Fin 2) * 10000 ≤ (i 0).val ∧ (i 0).val < win3_2.index t (0 : Fin 2) * 10000 + 10000; rw [e0, ht]; omega
  | ⟨1, _⟩ => show win3_2.index t (1 : Fin 2) * 128 ≤ (i 1).val ∧ (i 1).val < win3_2.index t (1 : Fin 2) * 128 + 128; rw [e1]; omega

/-- After the launch the result array is the product of the launch's row operand, as found, with its weight matrix. -/
theorem final3 (c : Dev nD) : (dat3 V c).arrAt 2 cfg3.N = times (V c main_v48 : Mat 100000 128) (V c main_arg5 : Mat 128 128) :=
  (dat3 V c).arrAt_eq_of_cover 2 _ (fun t _ => flushed3 V c t) (cover3)

end Cert.KernelIdeal.Stages

end
-- ==== Proof.Region4.lean ====
import proofs.«117698_j34600256536636_1_alg».proof.Proof.Gen.KernelIdeal.Frame
import proofs.«117698_j34600256536636_1_alg».proof.Proof.Payloads
import proofs.«117698_j34600256536636_1_alg».proof.Proof.Region0
import Idealize.ShloMosaic.Lib.Pipeline.Value

/-!
# The second layer's bias launch: the array it leaves

The launch walks ten blocks of 10000 consecutive rows of the second layer's aggregated messages. At block `t` the body reads those rows and the
bias, held as a matrix of one row, adds the bias to every row and takes the positive part, and writes the block back to the same rows of the result.
The operation treats every row alone, so the ten blocks together are the operation applied to the whole matrix.
-/

set_option maxRecDepth 16384

noncomputable section

namespace Cert.KernelIdeal.Stages

open Cert.KernelIdeal Cert.KernelIdeal.Gen Cert.KernelIdeal.Payloads Cert.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- At grid point `t` the row windows sit on block row `t` and the small operand's window on its only block. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem lt4 (t : Fin cfg4.N) : t.val < 10 := lt_of_lt_of_eq t.isLt (show cfg4.N = 10 from N_4)

/-- The row operand's block at point `t` holds rows `10000 t …` of its array as the launch finds it. -/
theorem iblk4_rows (c : Dev nD) (t : Fin cfg4.N) (p : Fin 10000) (q : Fin 128) :
    (iblk4 V c 0 t : Mat 10000 128) (ix2 p q) = (V c main_v62 : Mat 100000 128) (ix2 (rowOf t.val (lt4 t) p) q) := by
  obtain ⟨e0, e1, -, -, -, -⟩ := idx4 t
  unfold iblk4
  rw [View.read_apply]
  show V c main_v62 _ = V c main_v62 _
  congr 1
  funext a
  apply Fin.ext
  match a with
  | ⟨0, _⟩ => show win4_0.index t (0 : Fin 2) * 10000 + 1 * p.val = t.val * 10000 + p.val; rw [e0]; omega
  | ⟨1, _⟩ => show win4_0.index t (1 : Fin 2) * 128 + 1 * q.val = q.val; rw [e1]; omega

/-- The small operand's one block is the whole of its array. -/
theorem iblk4_small (c : Dev nD) (t : Fin cfg4.N) : (iblk4 V c 1 t : Mat 1 128) = (V c main_v63 : Mat 1 128) := by
  obtain ⟨-, -, e0, e1, -, -⟩ := idx4 t
  funext j
  obtain ⟨a, b, rfl⟩ : ∃ (a : Fin 1) (b : Fin 128), j = ix2 a b := ⟨j 0, j 1, eq_ix2 j⟩
  unfold iblk4
  rw [View.read_apply]
  show V c main_v63 _ = V c main_v63 _
  congr 1
  funext d
  apply Fin.ext
  match d with
  | ⟨0, _⟩ => show win4_1.index t (0 : Fin 2) * 1 + 1 * a.val = a.val; rw [e0]; omega
  | ⟨1, _⟩ => show win4_1.index t (1 : Fin 2) * 128 + 1 * b.val = b.val; rw [e1]; omega

/-- Where an entry of the output block at point `t` sits in the result array. -/
theorem emb4 (t : Fin cfg4.N) (p : Fin 10000) (q : Fin 128) :
    ((cfg4.win 2).blk t).view.emb (ix2 p q) = (ix2 (rowOf t.val (lt4 t) p) q : (⟨2, ![100000, 128]⟩ : Shape).Idx) := by
  obtain ⟨-, -, -, -, e0, e1⟩ := idx4 t
  funext a
  apply Fin.ext
  match a with
  | ⟨0, _⟩ => show win4_2.index t (0 : Fin 2) * 10000 + 1 * p.val = t.val * 10000 + p.val; rw [e0]; omega
  | ⟨1, _⟩ => show win4_2.index t (1 : Fin 2) * 128 + 1 * q.val = q.val; rw [e1]; omega

/-- What point `t` writes back is block `t` of the whole-array result. -/
theorem flushed4 (c : Dev nD) (t : Fin cfg4.N) :
    (dat4 V c).flushed 2 t = ((cfg4.win 2).blk t).view.read (Elt Ideal)
      (plusRowPos (V c main_v62 : Mat 100000 128) (V c main_v63 : Mat 1 128)) := by
  show (cfg4.win 2).cut (grid4.coords t) ((dat4 V c).after 2 t) = _
  rw [after4_2]
  unfold out4_2
  rw [View.canon_unit_zero hz]
  simp only [View.ld_unit_zero (S := S10000x128) hz, View.ld_unit_zero (S := S1x128) hz]
  rw [plusRowPos_pay4]
  funext j
  obtain ⟨p, q, rfl⟩ : ∃ (p : Fin 10000) (q : Fin 128), j = ix2 p q := ⟨j 0, j 1, eq_ix2 j⟩
  show plusRowPos (iblk4 V c 0 t : Mat 10000 128) (iblk4 V c 1 t : Mat 1 128) (ix2 p q)
    = plusRowPos (V c main_v62 : Mat 100000 128) (V c main_v63 : Mat 1 128) (((cfg4.win 2).blk t).view.emb (ix2 p q))
  rw [emb4 t p q, iblk4_small V c t]
  exact plusRowPos_rows _ _ _ _ (iblk4_rows V c t) p q

/-- The ten blocks cover the result array: row `r` lies in block `r / 10000`. -/
theorem cover4 (i : (⟨2, ![100000, 128]⟩ : Shape).Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 10 := N_4
  let t : Fin cfg4.N := ⟨(i 0).val / 10000, by rw [hN]; omega⟩
  obtain ⟨-, -, -, -, e0, e1⟩ := idx4 t
  have ht : t.val = (i 0).val / 10000 := rfl
  refine ⟨t, flush4_2 t, ?_⟩
  show i ∈ ((View.whole main_v64).slice (win4_2.rect t)).set
  rw [View.set_slice_whole, Rect.mem_set_unit]
  intro a
  match a with
  | ⟨0, _⟩ => show win4_2.index t (0 : Fin 2) * 10000 ≤ (i 0).val ∧ (i 0).val < win4_2.index t (0 : Fin 2) * 10000 + 10000; rw [e0, ht]; omega
  | ⟨1, _⟩ => show win4_2.index t (1 : Fin 2) * 128 ≤ (i 1).val ∧ (i 1).val < win4_2.index t (1 : Fin 2) * 128 + 128; rw [e1]; omega

/-- After the launch the result array is the aggregated matrix, as found, plus the bias row, positive part taken. -/
theorem final4 (c : Dev nD) : (dat4 V c).arrAt 2 cfg4.N = plusRowPos (V c main_v62 : Mat 100000 128) (V c main_v63 : Mat 1 128) :=
  (dat4 V c).arrAt_eq_of_cover 2 _ (fun t _ => flushed4 V c t) (cover4)

end Cert.KernelIdeal.Stages

end
-- ==== Proof.Region5.lean ====
import proofs.«117698_j34600256536636_1_alg».proof.Proof.Gen.KernelIdeal.Frame
import proofs.«117698_j34600256536636_1_alg».proof.Proof.Payloads
import proofs.«117698_j34600256536636_1_alg».proof.Proof.Region0
import Idealize.ShloMosaic.Lib.Pipeline.Value

/-!
# The output layer's matrix-product launch: the array it leaves

The launch walks ten blocks of 10000 consecutive rows of the second hidden layer. At block `t` the body reads those rows and the
whole weight matrix, multiplies them (the accumulator starts at zero and the change of float format is the identity over the
extended reals), and the product is written back to the same rows of the result. Row `r` of a matrix product depends on
row `r` of the left factor only, so the ten blocks together are the product of the whole matrix with the weights.
-/

set_option maxRecDepth 16384

noncomputable section

namespace Cert.KernelIdeal.Stages

open Cert.KernelIdeal Cert.KernelIdeal.Gen Cert.KernelIdeal.Payloads Cert.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- At grid point `t` the row windows sit on block row `t` and the small operand's window on its only block. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem lt5 (t : Fin cfg5.N) : t.val < 10 := lt_of_lt_of_eq t.isLt (show cfg5.N = 10 from N_5)

/-- The row operand's block at point `t` holds rows `10000 t …` of its array as the launch finds it. -/
theorem iblk5_rows (c : Dev nD) (t : Fin cfg5.N) (p : Fin 10000) (q : Fin 128) :
    (iblk5 V c 0 t : Mat 10000 128) (ix2 p q) = (V c main_v64 : Mat 100000 128) (ix2 (rowOf t.val (lt5 t) p) q) := by
  obtain ⟨e0, e1, -, -, -, -⟩ := idx5 t
  unfold iblk5
  rw [View.read_apply]
  show V c main_v64 _ = V c main_v64 _
  congr 1
  funext a
  apply Fin.ext
  match a with
  | ⟨0, _⟩ => show win5_0.index t (0 : Fin 2) * 10000 + 1 * p.val = t.val * 10000 + p.val; rw [e0]; omega
  | ⟨1, _⟩ => show win5_0.index t (1 : Fin 2) * 128 + 1 * q.val = q.val; rw [e1]; omega

/-- The small operand's one block is the whole of its array. -/
theorem iblk5_small (c : Dev nD) (t : Fin cfg5.N) : (iblk5 V c 1 t : Mat 128 1) = (V c main_arg7 : Mat 128 1) := by
  obtain ⟨-, -, e0, e1, -, -⟩ := idx5 t
  funext j
  obtain ⟨a, b, rfl⟩ : ∃ (a : Fin 128) (b : Fin 1), j = ix2 a b := ⟨j 0, j 1, eq_ix2 j⟩
  unfold iblk5
  rw [View.read_apply]
  show V c main_arg7 _ = V c main_arg7 _
  congr 1
  funext d
  apply Fin.ext
  match d with
  | ⟨0, _⟩ => show win5_1.index t (0 : Fin 2) * 128 + 1 * a.val = a.val; rw [e0]; omega
  | ⟨1, _⟩ => show win5_1.index t (1 : Fin 2) * 1 + 1 * b.val = b.val; rw [e1]; omega

/-- Where an entry of the output block at point `t` sits in the result array. -/
theorem emb5 (t : Fin cfg5.N) (p : Fin 10000) (q : Fin 1) :
    ((cfg5.win 2).blk t).view.emb (ix2 p q) = (ix2 (rowOf t.val (lt5 t) p) q : (⟨2, ![100000, 1]⟩ : Shape).Idx) := by
  obtain ⟨-, -, -, -, e0, e1⟩ := idx5 t
  funext a
  apply Fin.ext
  match a with
  | ⟨0, _⟩ => show win5_2.index t (0 : Fin 2) * 10000 + 1 * p.val = t.val * 10000 + p.val; rw [e0]; omega
  | ⟨1, _⟩ => show win5_2.index t (1 : Fin 2) * 1 + 1 * q.val = q.val; rw [e1]; omega

/-- What point `t` writes back is block `t` of the whole-array result. -/
theorem flushed5 (c : Dev nD) (t : Fin cfg5.N) :
    (dat5 V c).flushed 2 t = ((cfg5.win 2).blk t).view.read (Elt Ideal)
      (times (V c main_v64 : Mat 100000 128) (V c main_arg7 : Mat 128 1)) := by
  show (cfg5.win 2).cut (grid5.coords t) ((dat5 V c).after 2 t) = _
  rw [after5_2]
  unfold out5_2
  rw [View.canon_unit_zero hz]
  simp only [View.ld_unit_zero (S := S10000x128) hz, View.ld_unit_zero (S := S128x1) hz]
  rw [times_pay_col]
  funext j
  obtain ⟨p, q, rfl⟩ : ∃ (p : Fin 10000) (q : Fin 1), j = ix2 p q := ⟨j 0, j 1, eq_ix2 j⟩
  show times (iblk5 V c 0 t : Mat 10000 128) (iblk5 V c 1 t : Mat 128 1) (ix2 p q)
    = times (V c main_v64 : Mat 100000 128) (V c main_arg7 : Mat 128 1) (((cfg5.win 2).blk t).view.emb (ix2 p q))
  rw [emb5 t p q, iblk5_small V c t]
  exact times_rows _ _ _ _ (iblk5_rows V c t) p q

/-- The ten blocks cover the result array: row `r` lies in block `r / 10000`. -/
theorem cover5 (i : (⟨2, ![100000, 1]⟩ : Shape).Idx) :
    ∃ t : Fin cfg5.N, (cfg5.win 2).flush t = true ∧ i ∈ ((cfg5.win 2).blk t).view.set := by
  have hi0 : (i 0).val < 100000 := (i 0).isLt
  have hi1 : (i 1).val < 1 := (i 1).isLt
  have hN : cfg5.N = 10 := N_5
  let t : Fin cfg5.N := ⟨(i 0).val / 10000, by rw [hN]; omega⟩
  obtain ⟨-, -, -, -, e0, e1⟩ := idx5 t
  have ht : t.val = (i 0).val / 10000 := rfl
  refine ⟨t, flush5_2 t, ?_⟩
  show i ∈ ((View.whole main_v65).slice (win5_2.rect t)).set
  rw [View.set_slice_whole, Rect.mem_set_unit]
  intro a
  match a with
  | ⟨0, _⟩ => show win5_2.index t (0 : Fin 2) * 10000 ≤ (i 0).val ∧ (i 0).val < win5_2.index t (0 : Fin 2) * 10000 + 10000; rw [e0, ht]; omega
  | ⟨1, _⟩ => show win5_2.index t (1 : Fin 2) * 1 ≤ (i 1).val ∧ (i 1).val < win5_2.index t (1 : Fin 2) * 1 + 1; rw [e1]; omega

/-- After the launch the result array is the product of the launch's row operand, as found, with its one-column weight matrix. -/
theorem final5 (c : Dev nD) : (dat5 V c).arrAt 2 cfg5.N = times (V c main_v64 : Mat 100000 128) (V c main_arg7 : Mat 128 1) :=
  (dat5 V c).arrAt_eq_of_cover 2 _ (fun t _ => flushed5 V c t) (cover5)

end Cert.KernelIdeal.Stages

end
-- ==== Proof.Region6.lean ====
import proofs.«117698_j34600256536636_1_alg».proof.Proof.Gen.KernelIdeal.Frame
import proofs.«117698_j34600256536636_1_alg».proof.Proof.Payloads
import proofs.«117698_j34600256536636_1_alg».proof.Proof.Region0
import Idealize.ShloMosaic.Lib.Pipeline.Value

/-!
# The output layer's bias launch: the array it leaves

The launch walks ten blocks of 10000 consecutive rows of the output layer's aggregated messages. At block `t` the body reads those rows and the
bias, held as a matrix of one row, adds the bias to every row, and writes the block back to the same rows of the result.
The operation treats every row alone, so the ten blocks together are the operation applied to the whole matrix.
-/

set_option maxRecDepth 16384

noncomputable section

namespace Cert.KernelIdeal.Stages

open Cert.KernelIdeal Cert.KernelIdeal.Gen Cert.KernelIdeal.Payloads Cert.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- At grid point `t` the row windows sit on block row `t` and the small operand's window on its only block. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem lt6 (t : Fin cfg6.N) : t.val < 10 := lt_of_lt_of_eq t.isLt (show cfg6.N = 10 from N_6)

/-- The row operand's block at point `t` holds rows `10000 t …` of its array as the launch finds it. -/
theorem iblk6_rows (c : Dev nD) (t : Fin cfg6.N) (p : Fin 10000) (q : Fin 1) :
    (iblk6 V c 0 t : Mat 10000 1) (ix2 p q) = (V c main_v77 : Mat 100000 1) (ix2 (rowOf t.val (lt6 t) p) q) := by
  obtain ⟨e0, e1, -, -, -, -⟩ := idx6 t
  unfold iblk6
  rw [View.read_apply]
  show V c main_v77 _ = V c main_v77 _
  congr 1
  funext a
  apply Fin.ext
  match a with
  | ⟨0, _⟩ => show win6_0.index t (0 : Fin 2) * 10000 + 1 * p.val = t.val * 10000 + p.val; rw [e0]; omega
  | ⟨1, _⟩ => show win6_0.index t (1 : Fin 2) * 1 + 1 * q.val = q.val; rw [e1]; omega

/-- The small operand's one block is the whole of its array. -/
theorem iblk6_small (c : Dev nD) (t : Fin cfg6.N) : (iblk6 V c 1 t : Mat 1 1) = (V c main_v78 : Mat 1 1) := by
  obtain ⟨-, -, e0, e1, -, -⟩ := idx6 t
  funext j
  obtain ⟨a, b, rfl⟩ : ∃ (a : Fin 1) (b : Fin 1), j = ix2 a b := ⟨j 0, j 1, eq_ix2 j⟩
  unfold iblk6
  rw [View.read_apply]
  show V c main_v78 _ = V c main_v78 _
  congr 1
  funext d
  apply Fin.ext
  match d with
  | ⟨0, _⟩ => show win6_1.index t (0 : Fin 2) * 1 + 1 * a.val = a.val; rw [e0]; omega
  | ⟨1, _⟩ => show win6_1.index t (1 : Fin 2) * 1 + 1 * b.val = b.val; rw [e1]; omega

/-- Where an entry of the output block at point `t` sits in the result array. -/
theorem emb6 (t : Fin cfg6.N) (p : Fin 10000) (q : Fin 1) :
    ((cfg6.win 2).blk t).view.emb (ix2 p q) = (ix2 (rowOf t.val (lt6 t) p) q : (⟨2, ![100000, 1]⟩ : Shape).Idx) := by
  obtain ⟨-, -, -, -, e0, e1⟩ := idx6 t
  funext a
  apply Fin.ext
  match a with
  | ⟨0, _⟩ => show win6_2.index t (0 : Fin 2) * 10000 + 1 * p.val = t.val * 10000 + p.val; rw [e0]; omega
  | ⟨1, _⟩ => show win6_2.index t (1 : Fin 2) * 1 + 1 * q.val = q.val; rw [e1]; omega

/-- What point `t` writes back is block `t` of the whole-array result. -/
theorem flushed6 (c : Dev nD) (t : Fin cfg6.N) :
    (dat6 V c).flushed 2 t = ((cfg6.win 2).blk t).view.read (Elt Ideal)
      (plusRow (V c main_v77 : Mat 100000 1) (V c main_v78 : Mat 1 1)) := by
  show (cfg6.win 2).cut (grid6.coords t) ((dat6 V c).after 2 t) = _
  rw [after6_2]
  unfold out6_2
  rw [View.canon_unit_zero hz]
  simp only [View.ld_unit_zero (S := S10000x1) hz, View.ld_unit_zero (S := S1x1) hz]
  rw [plusRow_pay]
  funext j
  obtain ⟨p, q, rfl⟩ : ∃ (p : Fin 10000) (q : Fin 1), j = ix2 p q := ⟨j 0, j 1, eq_ix2 j⟩
  show plusRow (iblk6 V c 0 t : Mat 10000 1) (iblk6 V c 1 t : Mat 1 1) (ix2 p q)
    = plusRow (V c main_v77 : Mat 100000 1) (V c main_v78 : Mat 1 1) (((cfg6.win 2).blk t).view.emb (ix2 p q))
  rw [emb6 t p q, iblk6_small V c t]
  exact plusRow_rows _ _ _ _ (iblk6_rows V c t) p q

/-- The ten blocks cover the result array: row `r` lies in block `r / 10000`. -/
theorem cover6 (i : (⟨2, ![100000, 1]⟩ : Shape).Idx) :
    ∃ t : Fin cfg6.N, (cfg6.win 2).flush t = true ∧ i ∈ ((cfg6.win 2).blk t).view.set := by
  have hi0 : (i 0).val < 100000 := (i 0).isLt
  have hi1 : (i 1).val < 1 := (i 1).isLt
  have hN : cfg6.N = 10 := N_6
  let t : Fin cfg6.N := ⟨(i 0).val / 10000, by rw [hN]; omega⟩
  obtain ⟨-, -, -, -, e0, e1⟩ := idx6 t
  have ht : t.val = (i 0).val / 10000 := rfl
  refine ⟨t, flush6_2 t, ?_⟩
  show i ∈ ((View.whole main_v79).slice (win6_2.rect t)).set
  rw [View.set_slice_whole, Rect.mem_set_unit]
  intro a
  match a with
  | ⟨0, _⟩ => show win6_2.index t (0 : Fin 2) * 10000 ≤ (i 0).val ∧ (i 0).val < win6_2.index t (0 : Fin 2) * 10000 + 10000; rw [e0, ht]; omega
  | ⟨1, _⟩ => show win6_2.index t (1 : Fin 2) * 1 ≤ (i 1).val ∧ (i 1).val < win6_2.index t (1 : Fin 2) * 1 + 1; rw [e1]; omega

/-- After the launch the result array is the aggregated one-column matrix, as found, plus the one-entry bias. -/
theorem final6 (c : Dev nD) : (dat6 V c).arrAt 2 cfg6.N = plusRow (V c main_v77 : Mat 100000 1) (V c main_v78 : Mat 1 1) :=
  (dat6 V c).arrAt_eq_of_cover 2 _ (fun t _ => flushed6 V c t) (cover6)

end Cert.KernelIdeal.Stages

end
-- ==== Proof.RefStages.lean ====
import proofs.«117698_j34600256536636_1_alg».proof.Proof.Gen.ReferenceIdeal.Read
import proofs.«117698_j34600256536636_1_alg».proof.Proof.Rows
import proofs.«117698_j34600256536636_1_alg».proof.Proof.LibPlainDot
import Idealize.ShloMosaic.Lib.Pipeline.Value
import Idealize.ShloMosaic.Lib.ValueIdx
import Idealize.ShloMosaic.PureOps.Ideal.Laws

/-!
# The reference's dense stages as row-wise operations

Between its gathers and scatter-adds the reference computes, over the extended reals: the feature matrix with every row
divided by its sum; three matrix products; and three bias additions, the first two followed by the positive part. Each
is one of the row-wise operations: `ref_normalize`, `ref_times_*`, `ref_plusRowPos_*`, `ref_plusRow`. A bias vector enters
as a one-row matrix (`asRow`).
-/

noncomputable section

namespace Cert.ReferenceIdeal.RefStages

open Cert.ReferenceIdeal Cert.ReferenceIdeal.Gen Cert.ReferenceIdeal.Read Idealize.ShloMosaic Idealize.ShloMosaic.ValueIdx Cert.Rows
open scoped BigOperators

/-- A vector as a matrix of one row. -/
def asRow {C : Nat} (b : (⟨1, ![C]⟩ : Shape).Idx → EReal) : Mat 1 C := fun i => b (ix1 (i 1))

/-- The reference's first stage: every entry of the feature matrix divided by the sum of its row (the sum starts from
    the zero word, which is the extended real zero). -/
theorem ref_normalize (x0 : FVec Ideal S100000x128 .f32) : val_main_v3 (F := Ideal) x0 = normalize x0 := by
  funext i
  obtain ⟨p, q, rfl⟩ : ∃ (p : Fin 100000) (q : Fin 128), i = ix2 p q := ⟨i 0, i 1, eq_ix2 i⟩
  rw [val_main_v3_apply, val_main_v2_apply, val_main_v1_apply, val_main_v0_apply, normalize_apply]
  show Ideal.div (x0 (ix2 p q)) (Ideal.ofBits .f32 0x00000000#32 + _) = _
  rw [Ideal.ofBits_zero_f32, zero_add]
  refine congrArg (Ideal.div (x0 (ix2 p q))) (Finset.sum_congr rfl fun k _ => congrArg x0 (funext fun a => Fin.ext ?_))
  match a with
  | ⟨0, _⟩ => rfl
  | ⟨1, _⟩ => rfl

/-- The host's product of the whole matrix with a square weight matrix. -/
theorem ref_dot_wide (l : FVec Ideal S100000x128 .f32) (r : FVec Ideal S128x128 .f32) :
    Host.dotGeneral dot_S100000x128_S128x128_S100000x128_1_0_0_1_n_n none l r = times l r := by
  funext i
  obtain ⟨p, q, rfl⟩ : ∃ (p : Fin 100000) (q : Fin 128), i = ix2 p q := ⟨i 0, i 1, eq_ix2 i⟩
  exact LibPlainDot.dotGeneral_apply dot_S100000x128_S128x128_S100000x128_1_0_0_1_n_n ⟨rfl, rfl, rfl, rfl, rfl, rfl⟩ none _ l r p q

/-- The host's product of the whole matrix with the one-column weight matrix. -/
theorem ref_dot_col (l : FVec Ideal S100000x128 .f32) (r : FVec Ideal S128x1 .f32) :
    Host.dotGeneral dot_S100000x128_S128x1_S100000x1_1_0_0_1_n_n none l r = times l r := by
  funext i
  obtain ⟨p, q, rfl⟩ : ∃ (p : Fin 100000) (q : Fin 1), i = ix2 p q := ⟨i 0, i 1, eq_ix2 i⟩
  exact LibPlainDot.dotGeneral_apply dot_S100000x128_S128x1_S100000x1_1_0_0_1_n_n ⟨rfl, rfl, rfl, rfl, rfl, rfl⟩ none _ l r p q

/-- A bias vector spread over every row of the wide matrix. -/
theorem bias_spread_wide (b : FVec Ideal S128 .f32) (p : Fin 100000) (q : Fin 128) :
    broadcastInDim S100000x128 ![0, 1] bcast_S1x128_S100000x128_0_1 (broadcastInDim S1x128 ![1] bcast_S128_S1x128_1 b) (ix2 p q)
      = asRow b (ix2 (0 : Fin 1) q) := by
  refine (broadcastInDim_apply _ bcast_S1x128_S100000x128_0_1 _ (ix2 p q) (ix2 (0 : Fin 1) q) (fun a => ?_)).trans ?_
  · match a with
    | ⟨0, _⟩ => show 0 = if (1 : Nat) = 1 then 0 else p.val; rw [if_pos rfl]
    | ⟨1, _⟩ => show q.val = if (128 : Nat) = 1 then 0 else q.val; rw [if_neg (by decide)]
  refine broadcastInDim_apply _ bcast_S128_S1x128_1 b (ix2 (0 : Fin 1) q) (ix1 q) (fun a => ?_)
  match a with
  | ⟨0, _⟩ => show q.val = if (128 : Nat) = 1 then 0 else q.val; rw [if_neg (by decide)]

/-- The one-entry bias spread over every row of the one-column matrix. -/
theorem bias_spread_col (b : FVec Ideal S1 .f32) (p : Fin 100000) (q : Fin 1) :
    broadcastInDim S100000x1 ![0, 1] bcast_S1x1_S100000x1_0_1 (broadcastInDim S1x1 ![1] bcast_S1_S1x1_1 b) (ix2 p q)
      = asRow b (ix2 (0 : Fin 1) q) := by
  refine (broadcastInDim_apply _ bcast_S1x1_S100000x1_0_1 _ (ix2 p q) (ix2 (0 : Fin 1) q) (fun a => ?_)).trans ?_
  · match a with
    | ⟨0, _⟩ => show 0 = if (1 : Nat) = 1 then 0 else p.val; rw [if_pos rfl]
    | ⟨1, _⟩ => show q.val = if (1 : Nat) = 1 then 0 else q.val; rw [if_pos rfl]; exact Nat.lt_one_iff.mp q.isLt
  refine broadcastInDim_apply _ bcast_S1_S1x1_1 b (ix2 (0 : Fin 1) q) (ix1 q) (fun a => ?_)
  match a with
  | ⟨0, _⟩ => show q.val = if (1 : Nat) = 1 then 0 else q.val; rw [if_pos rfl]; exact Nat.lt_one_iff.mp q.isLt

/-- A hidden layer's bias and activation on the host: the bias row added to every row, then the positive part (the
    maximum with the zero word, which is the extended real zero). -/
theorem ref_plusRowPos (X : FVec Ideal S100000x128 .f32) (b : FVec Ideal S128 .f32) :
    maximumf (addf X (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32))
      = plusRowPos X (asRow b) := by
  funext i
  obtain ⟨p, q, rfl⟩ : ∃ (p : Fin 100000) (q : Fin 128), i = ix2 p q := ⟨i 0, i 1, eq_ix2 i⟩
  refine (maximumf_apply _ _ (ix2 p q)).trans ?_
  rw [plusRowPos_apply, addf_apply, bias_spread_wide]
  refine congrArg (max _) ?_
  refine (broadcastInDim_apply _ bcast_S_S100000x128 _ (ix2 p q) ix0 (fun a => a.elim0)).trans ?_
  exact Ideal.ofBits_zero_f32

/-- The output layer's bias on the host. -/
theorem ref_plusRow (X : FVec Ideal S100000x1 .f32) (b : FVec Ideal S1 .f32) :
    addf X (broadcastInDim S100000x1 ![0, 1] bcast_S1x1_S100000x1_0_1 (broadcastInDim S1x1 ![1] bcast_S1_S1x1_1 b))
      = plusRow X (asRow b) := by
  funext i
  obtain ⟨p, q, rfl⟩ : ∃ (p : Fin 100000) (q : Fin 1), i = ix2 p q := ⟨i 0, i 1, eq_ix2 i⟩
  refine (addf_apply _ _ (ix2 p q)).trans ?_
  rw [plusRow_apply, bias_spread_col]

end Cert.ReferenceIdeal.RefStages

end
-- ==== Proof.Chain.lean ====
import proofs.«117698_j34600256536636_1_alg».proof.Proof.KernelRun
import proofs.«117698_j34600256536636_1_alg».proof.Proof.Region0
import proofs.«117698_j34600256536636_1_alg».proof.Proof.Region1
import proofs.«117698_j34600256536636_1_alg».proof.Proof.Region2
import proofs.«117698_j34600256536636_1_alg».proof.Proof.Region3
import proofs.«117698_j34600256536636_1_alg».proof.Proof.Region4
import proofs.«117698_j34600256536636_1_alg».proof.Proof.Region5
import proofs.«117698_j34600256536636_1_alg».proof.Proof.Region6
import proofs.«117698_j34600256536636_1_alg».proof.Proof.RefStages
import Idealize.ShloMosaic.Lib.StableHlo.Run
import Idealize.ShloMosaic.Lib.Pipeline.Value

/-!
# The kernel program's result is the reference's

The buffer contents are followed from the launch to the return, one boundary at a time. A host stretch computes its
buffers from the ones before it by the same operations, in the same order, as the reference does: the edge lists with the
self loops appended, the edge weights, the symmetric normalization of the edges, and per layer the gather of the
transformed rows along the source nodes, their scaling by the edge norm and the scatter-add onto the target nodes. A launch
leaves a row-wise operation of its operands (the launches' own modules), and the reference's dense stages are the same
row-wise operations. So at every boundary each live buffer holds the reference's value of the same name, written as a
function of the nine arguments, and the last launch leaves the reference's result.

A buffer that a stretch or a launch does not write keeps its contents; those facts are stated first, boundary by boundary.
-/

set_option maxRecDepth 16384

noncomputable section

namespace Cert.KernelIdeal.Chain

open Cert.KernelIdeal Cert.KernelIdeal.Gen Cert.KernelIdeal.Stages Cert.Rows
open Cert.ReferenceIdeal.RefStages (asRow ref_normalize ref_dot_wide ref_dot_col ref_plusRowPos ref_plusRow)
open Cert.ReferenceIdeal.Read (val_main_v3 val_main_v9 val_main_v10 val_main_v12 val_main_v17 val_main_v18 val_main_v19 val_main_cst_3 val_main_v35 val_main_v36 val_main_v49 val_main_v50 val_main_v51
  val_main_v52 val_main_v53 val_main_call0_v1 val_main_call0_v0 val_main_call1_v0 val_main_call1_cst val_main_v54 val_main_v67 val_main_v68 val_main_v69 val_main_v70 val_main_v71
  val_main_call2_v0 val_main_call2_cst val_main_v72 val_main_v84 val_main_v85 val_main_v86 val_main_v87)
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- Argument 0 as launched. -/
abbrev A0 : Buf (Elt Ideal) ((c : Thread nD τ).loc main_arg0) := m ((c : Thread nD τ).loc main_arg0)
/-- Argument 1 as launched. -/
abbrev A1 : Buf (Elt Ideal) ((c : Thread nD τ).loc main_arg1) := m ((c : Thread nD τ).loc main_arg1)
/-- Argument 2 as launched. -/
abbrev A2 : Buf (Elt Ideal) ((c : Thread nD τ).loc main_arg2) := m ((c : Thread nD τ).loc main_arg2)
/-- Argument 3 as launched. -/
abbrev A3 : Buf (Elt Ideal) ((c : Thread nD τ).loc main_arg3) := m ((c : Thread nD τ).loc main_arg3)
/-- Argument 4 as launched. -/
abbrev A4 : Buf (Elt Ideal) ((c : Thread nD τ).loc main_arg4) := m ((c : Thread nD τ).loc main_arg4)
/-- Argument 5 as launched. -/
abbrev A5 : Buf (Elt Ideal) ((c : Thread nD τ).loc main_arg5) := m ((c : Thread nD τ).loc main_arg5)
/-- Argument 6 as launched. -/
abbrev A6 : Buf (Elt Ideal) ((c : Thread nD τ).loc main_arg6) := m ((c : Thread nD τ).loc main_arg6)
/-- Argument 7 as launched. -/
abbrev A7 : Buf (Elt Ideal) ((c : Thread nD τ).loc main_arg7) := m ((c : Thread nD τ).loc main_arg7)
/-- Argument 8 as launched. -/
abbrev A8 : Buf (Elt Ideal) ((c : Thread nD τ).loc main_arg8) := m ((c : Thread nD τ).loc main_arg8)

/-! ## A bias vector reshaped to one row -/

/-- The 128-entry bias vector reshaped to a matrix of one row. -/
theorem reshape_row_wide (b : FVec Ideal S128 .f32) :
    (fun i => shapeCast S1x128 b shapeCasts_S128_S1x128 i : Mat 1 128) = asRow b := by
  funext i
  obtain ⟨z, q, rfl⟩ : ∃ (z : Fin 1) (q : Fin 128), i = ix2 z q := ⟨i 0, i 1, eq_ix2 i⟩
  refine shapeCast_apply b shapeCasts_S128_S1x128 (ix2 z q) (ix1 q) ?_
  rewrite [Shape.rowMajor_val_two, Shape.rowMajor_val_one]
  show q.val = z.val * 128 + q.val
  have := z.isLt
  omega

/-- The one-entry bias vector reshaped to a matrix of one row and one column. -/
theorem reshape_row_col (b : FVec Ideal S1 .f32) :
    (fun i => shapeCast S1x1 b shapeCasts_S1_S1x1 i : Mat 1 1) = asRow b := by
  funext i
  obtain ⟨z, q, rfl⟩ : ∃ (z : Fin 1) (q : Fin 1), i = ix2 z q := ⟨i 0, i 1, eq_ix2 i⟩
  refine shapeCast_apply b shapeCasts_S1_S1x1 (ix2 z q) (ix1 q) ?_
  rewrite [Shape.rowMajor_val_two, Shape.rowMajor_val_one]
  show q.val = z.val * 1 + q.val
  have := z.isLt
  omega

/-! ## After the normalization launch -/

/-- The normalized features: the reference's first stage. -/
theorem at1_v0 : W1 m ρ c (Proc.devRef .tc main_v0) = val_main_v3 (F := Ideal) (A0 m c) :=
  (W1_arr m ρ c 1).trans ((final0 (V0 m ρ) c).trans (ref_normalize _).symm)

theorem at1_arg1 : W1 m ρ c (Proc.devRef .tc main_arg1) = (A1 m c) :=
  W1_of_ne m ρ c main_arg1 (by decide)
theorem at1_arg2 : W1 m ρ c (Proc.devRef .tc main_arg2) = (A2 m c) :=
  W1_of_ne m ρ c main_arg2 (by decide)
theorem at1_arg3 : W1 m ρ c (Proc.devRef .tc main_arg3) = (A3 m c) :=
  W1_of_ne m ρ c main_arg3 (by decide)
theorem at1_arg4 : W1 m ρ c (Proc.devRef .tc main_arg4) = (A4 m c) :=
  W1_of_ne m ρ c main_arg4 (by decide)
theorem at1_arg5 : W1 m ρ c (Proc.devRef .tc main_arg5) = (A5 m c) :=
  W1_of_ne m ρ c main_arg5 (by decide)
theorem at1_arg6 : W1 m ρ c (Proc.devRef .tc main_arg6) = (A6 m c) :=
  W1_of_ne m ρ c main_arg6 (by decide)
theorem at1_arg7 : W1 m ρ c (Proc.devRef .tc main_arg7) = (A7 m c) :=
  W1_of_ne m ρ c main_arg7 (by decide)
theorem at1_arg8 : W1 m ρ c (Proc.devRef .tc main_arg8) = (A8 m c) :=
  W1_of_ne m ρ c main_arg8 (by decide)

/-! ## After the first host stretch: the edge lists and the edge norm -/

/-- The source nodes with the self loops appended. -/
theorem at2_v6 : W2 m ρ c (Proc.devRef .tc main_v6) = val_main_v9 (F := Ideal) (A1 m c) := by
  show StableHlo.after hostOps1 (W1 m ρ c) (Proc.devRef .tc main_v6) = _
  unfold hostOps1
  after_results
  rw [at1_arg1 m ρ c]
  rfl

/-- The target nodes with the self loops appended. -/
theorem at2_v7 : W2 m ρ c (Proc.devRef .tc main_v7) = val_main_v10 (F := Ideal) (A1 m c) := by
  show StableHlo.after hostOps1 (W1 m ρ c) (Proc.devRef .tc main_v7) = _
  unfold hostOps1
  after_results
  rw [at1_arg1 m ρ c]
  rfl

/-- The edge weights with a one appended for every self loop. -/
theorem at2_v9 : W2 m ρ c (Proc.devRef .tc main_v9) = val_main_v12 (F := Ideal) (A2 m c) := by
  show StableHlo.after hostOps1 (W1 m ρ c) (Proc.devRef .tc main_v9) = _
  unfold hostOps1
  after_results
  rw [at1_arg2 m ρ c]
  rfl

/-- Where the weighted in-degree is positive. -/
theorem at2_v14 : W2 m ρ c (Proc.devRef .tc main_v14) = val_main_v17 (F := Ideal) (A1 m c) (A2 m c) := by
  show StableHlo.after hostOps1 (W1 m ρ c) (Proc.devRef .tc main_v14) = _
  unfold hostOps1
  after_results
  rw [at1_arg1 m ρ c, at1_arg2 m ρ c]
  rfl

/-- The reciprocal square root of the weighted in-degree. -/
theorem at2_v15 : W2 m ρ c (Proc.devRef .tc main_v15) = val_main_v18 (F := Ideal) (A1 m c) (A2 m c) := by
  show StableHlo.after hostOps1 (W1 m ρ c) (Proc.devRef .tc main_v15) = _
  unfold hostOps1
  after_results
  rw [at1_arg1 m ρ c, at1_arg2 m ρ c]
  rfl

/-- The zero that stands where the in-degree is not positive. -/
theorem at2_cst_2 : W2 m ρ c (Proc.devRef .tc main_cst_2) = val_main_cst_3 (F := Ideal) := by
  show StableHlo.after hostOps1 (W1 m ρ c) (Proc.devRef .tc main_cst_2) = _
  unfold hostOps1
  after_results
  rfl

/-- The selection between the reciprocal square root and zero, with the typed references' transports removed. -/
theorem where_val (X : main_v14.ty.Contents (Elt Ideal)) (Y : main_v15.ty.Contents (Elt Ideal)) (Z : main_cst_2.ty.Contents (Elt Ideal)) :
    (TRef.of main_v16 : TRef sig ⟨S100000, .f32⟩).toBuf
      (select ((TRef.of main_v14 : TRef sig ⟨S100000, .i1⟩).ofBuf X) ((TRef.of main_v15 : TRef sig ⟨S100000, .f32⟩).ofBuf Y)
        ((TRef.of main_call0_v1 : TRef sig ⟨S100000, .f32⟩).ofBuf ((TRef.of main_call0_v1 : TRef sig ⟨S100000, .f32⟩).toBuf
          (broadcastInDim S100000 ![] bcast_S_S100000 ((TRef.of main_call0_v0 : TRef sig ⟨S_, .f32⟩).ofBuf ((TRef.of main_call0_v0 : TRef sig ⟨S_, .f32⟩).toBuf
            (id ((TRef.of main_cst_2 : TRef sig ⟨S_, .f32⟩).ofBuf Z))))))))
      = select X Y (broadcastInDim S100000 ![] bcast_S_S100000 (id Z)) := rfl

/-- The inverse square root of the in-degree, zero where the in-degree is not positive. -/
theorem at3_v16 : W3 m ρ c (Proc.devRef .tc main_v16) = val_main_v19 (F := Ideal) (A1 m c) (A2 m c) := by
  have h14 := at2_v14 m ρ c
  have h15 := at2_v15 m ρ c
  have hc := at2_cst_2 m ρ c
  show StableHlo.after hostOps1_1 (W2 m ρ c) (Proc.devRef .tc main_v16) = _
  generalize W2 m ρ c = Wx at h14 h15 hc ⊢
  unfold hostOps1_1
  after_results
  refine (where_val _ _ _).trans ?_
  rw [h14, h15, hc]
  unfold val_main_v19 val_main_call0_v1 val_main_call0_v0
  rfl

theorem at3_v6 : W3 m ρ c (Proc.devRef .tc main_v6) = val_main_v9 (F := Ideal) (A1 m c) := by
  have h := at2_v6 m ρ c
  show StableHlo.after hostOps1_1 (W2 m ρ c) (Proc.devRef .tc main_v6) = _
  generalize W2 m ρ c = Wx at h ⊢
  unfold hostOps1_1
  after_results
  exact h
theorem at3_v7 : W3 m ρ c (Proc.devRef .tc main_v7) = val_main_v10 (F := Ideal) (A1 m c) := by
  have h := at2_v7 m ρ c
  show StableHlo.after hostOps1_1 (W2 m ρ c) (Proc.devRef .tc main_v7) = _
  generalize W2 m ρ c = Wx at h ⊢
  unfold hostOps1_1
  after_results
  exact h
theorem at3_v9 : W3 m ρ c (Proc.devRef .tc main_v9) = val_main_v12 (F := Ideal) (A2 m c) := by
  have h := at2_v9 m ρ c
  show StableHlo.after hostOps1_1 (W2 m ρ c) (Proc.devRef .tc main_v9) = _
  generalize W2 m ρ c = Wx at h ⊢
  unfold hostOps1_1
  after_results
  exact h

set_option maxHeartbeats 4000000 in
/-- The symmetric normalization of the edge weights. -/
theorem at4_v32 : W4 m ρ c (Proc.devRef .tc main_v32) = val_main_v35 (F := Ideal) (A1 m c) (A2 m c) := by
  have h16 := at3_v16 m ρ c
  have h6 := at3_v6 m ρ c
  have h7 := at3_v7 m ρ c
  have h9 := at3_v9 m ρ c
  show StableHlo.after hostOps1_2 (W3 m ρ c) (Proc.devRef .tc main_v32) = _
  generalize W3 m ρ c = Wx at h16 h6 h7 h9 ⊢
  unfold hostOps1_2
  after_results_simp
  rw [h16, h6, h7, h9]
  rfl

theorem at4_v6 : W4 m ρ c (Proc.devRef .tc main_v6) = val_main_v9 (F := Ideal) (A1 m c) := by
  have h := at3_v6 m ρ c
  show StableHlo.after hostOps1_2 (W3 m ρ c) (Proc.devRef .tc main_v6) = _
  generalize W3 m ρ c = Wx at h ⊢
  unfold hostOps1_2
  after_results
  exact h
theorem at4_v7 : W4 m ρ c (Proc.devRef .tc main_v7) = val_main_v10 (F := Ideal) (A1 m c) := by
  have h := at3_v7 m ρ c
  show StableHlo.after hostOps1_2 (W3 m ρ c) (Proc.devRef .tc main_v7) = _
  generalize W3 m ρ c = Wx at h ⊢
  unfold hostOps1_2
  after_results
  exact h

theorem at4_v0 : W4 m ρ c (Proc.devRef .tc main_v0) = val_main_v3 (F := Ideal) (A0 m c) := by
  show StableHlo.after hostOps1_2 (StableHlo.after hostOps1_1 (StableHlo.after hostOps1 (W1 m ρ c))) (Proc.devRef .tc main_v0) = _
  unfold hostOps1_2 hostOps1_1 hostOps1
  after_results
  exact at1_v0 m ρ c
theorem at4_arg3 : W4 m ρ c (Proc.devRef .tc main_arg3) = (A3 m c) := by
  show StableHlo.after hostOps1_2 (StableHlo.after hostOps1_1 (StableHlo.after hostOps1 (W1 m ρ c))) (Proc.devRef .tc main_arg3) = _
  unfold hostOps1_2 hostOps1_1 hostOps1
  after_results
  exact at1_arg3 m ρ c
theorem at4_arg4 : W4 m ρ c (Proc.devRef .tc main_arg4) = (A4 m c) := by
  show StableHlo.after hostOps1_2 (StableHlo.after hostOps1_1 (StableHlo.after hostOps1 (W1 m ρ c))) (Proc.devRef .tc main_arg4) = _
  unfold hostOps1_2 hostOps1_1 hostOps1
  after_results
  exact at1_arg4 m ρ c
theorem at4_arg5 : W4 m ρ c (Proc.devRef .tc main_arg5) = (A5 m c) := by
  show StableHlo.after hostOps1_2 (StableHlo.after hostOps1_1 (StableHlo.after hostOps1 (W1 m ρ c))) (Proc.devRef .tc main_arg5) = _
  unfold hostOps1_2 hostOps1_1 hostOps1
  after_results
  exact at1_arg5 m ρ c
theorem at4_arg6 : W4 m ρ c (Proc.devRef .tc main_arg6) = (A6 m c) := by
  show StableHlo.after hostOps1_2 (StableHlo.after hostOps1_1 (StableHlo.after hostOps1 (W1 m ρ c))) (Proc.devRef .tc main_arg6) = _
  unfold hostOps1_2 hostOps1_1 hostOps1
  after_results
  exact at1_arg6 m ρ c
theorem at4_arg7 : W4 m ρ c (Proc.devRef .tc main_arg7) = (A7 m c) := by
  show StableHlo.after hostOps1_2 (StableHlo.after hostOps1_1 (StableHlo.after hostOps1 (W1 m ρ c))) (Proc.devRef .tc main_arg7) = _
  unfold hostOps1_2 hostOps1_1 hostOps1
  after_results
  exact at1_arg7 m ρ c
theorem at4_arg8 : W4 m ρ c (Proc.devRef .tc main_arg8) = (A8 m c) := by
  show StableHlo.after hostOps1_2 (StableHlo.after hostOps1_1 (StableHlo.after hostOps1 (W1 m ρ c))) (Proc.devRef .tc main_arg8) = _
  unfold hostOps1_2 hostOps1_1 hostOps1
  after_results
  exact at1_arg8 m ρ c

/-! ## The first layer -/

/-- The transformed features. -/
theorem at5_v33 : W5 m ρ c (Proc.devRef .tc main_v33) = val_main_v36 (F := Ideal) (A0 m c) (A3 m c) := by
  refine (W5_arr m ρ c 2).trans ((final1 (V4 m ρ) c).trans ?_)
  show times (W4 m ρ c (Proc.devRef .tc main_v0)) (W4 m ρ c (Proc.devRef .tc main_arg3)) = _
  rw [at4_v0 m ρ c, at4_arg3 m ρ c]
  unfold val_main_v36
  exact (ref_dot_wide _ _).symm

theorem at5_v6 : W5 m ρ c (Proc.devRef .tc main_v6) = val_main_v9 (F := Ideal) (A1 m c) :=
  (W5_of_ne m ρ c main_v6 (by decide)).trans (at4_v6 m ρ c)
theorem at5_v7 : W5 m ρ c (Proc.devRef .tc main_v7) = val_main_v10 (F := Ideal) (A1 m c) :=
  (W5_of_ne m ρ c main_v7 (by decide)).trans (at4_v7 m ρ c)
theorem at5_v32 : W5 m ρ c (Proc.devRef .tc main_v32) = val_main_v35 (F := Ideal) (A1 m c) (A2 m c) :=
  (W5_of_ne m ρ c main_v32 (by decide)).trans (at4_v32 m ρ c)
theorem at5_arg4 : W5 m ρ c (Proc.devRef .tc main_arg4) = (A4 m c) :=
  (W5_of_ne m ρ c main_arg4 (by decide)).trans (at4_arg4 m ρ c)
theorem at5_arg5 : W5 m ρ c (Proc.devRef .tc main_arg5) = (A5 m c) :=
  (W5_of_ne m ρ c main_arg5 (by decide)).trans (at4_arg5 m ρ c)
theorem at5_arg6 : W5 m ρ c (Proc.devRef .tc main_arg6) = (A6 m c) :=
  (W5_of_ne m ρ c main_arg6 (by decide)).trans (at4_arg6 m ρ c)
theorem at5_arg7 : W5 m ρ c (Proc.devRef .tc main_arg7) = (A7 m c) :=
  (W5_of_ne m ρ c main_arg7 (by decide)).trans (at4_arg7 m ρ c)
theorem at5_arg8 : W5 m ρ c (Proc.devRef .tc main_arg8) = (A8 m c) :=
  (W5_of_ne m ρ c main_arg8 (by decide)).trans (at4_arg8 m ρ c)

set_option maxHeartbeats 4000000 in
/-- The messages gathered, scaled by the edge norm and summed onto their target nodes. -/
theorem at6_v46 : W6 m ρ c (Proc.devRef .tc main_v46) = val_main_v49 (F := Ideal) (A0 m c) (A1 m c) (A2 m c) (A3 m c) := by
  show StableHlo.after hostOps2 (W5 m ρ c) (Proc.devRef .tc main_v46) = _
  unfold hostOps2
  after_results_simp
  rw [at5_v33 m ρ c, at5_v6 m ρ c, at5_v7 m ρ c, at5_v32 m ρ c]
  rfl

/-- The first bias as a row. -/
theorem at6_v47 : (W6 m ρ c (Proc.devRef .tc main_v47) : Mat 1 128) = asRow (A4 m c) := by
  show StableHlo.after hostOps2 (W5 m ρ c) (Proc.devRef .tc main_v47) = _
  unfold hostOps2
  after_results
  rw [at5_arg4 m ρ c]
  exact reshape_row_wide _

theorem at6_v6 : W6 m ρ c (Proc.devRef .tc main_v6) = val_main_v9 (F := Ideal) (A1 m c) := by
  show StableHlo.after hostOps2 (W5 m ρ c) (Proc.devRef .tc main_v6) = _
  unfold hostOps2
  after_results
  exact at5_v6 m ρ c
theorem at6_v7 : W6 m ρ c (Proc.devRef .tc main_v7) = val_main_v10 (F := Ideal) (A1 m c) := by
  show StableHlo.after hostOps2 (W5 m ρ c) (Proc.devRef .tc main_v7) = _
  unfold hostOps2
  after_results
  exact at5_v7 m ρ c
theorem at6_v32 : W6 m ρ c (Proc.devRef .tc main_v32) = val_main_v35 (F := Ideal) (A1 m c) (A2 m c) := by
  show StableHlo.after hostOps2 (W5 m ρ c) (Proc.devRef .tc main_v32) = _
  unfold hostOps2
  after_results
  exact at5_v32 m ρ c
theorem at6_arg5 : W6 m ρ c (Proc.devRef .tc main_arg5) = (A5 m c) := by
  show StableHlo.after hostOps2 (W5 m ρ c) (Proc.devRef .tc main_arg5) = _
  unfold hostOps2
  after_results
  exact at5_arg5 m ρ c
theorem at6_arg6 : W6 m ρ c (Proc.devRef .tc main_arg6) = (A6 m c) := by
  show StableHlo.after hostOps2 (W5 m ρ c) (Proc.devRef .tc main_arg6) = _
  unfold hostOps2
  after_results
  exact at5_arg6 m ρ c
theorem at6_arg7 : W6 m ρ c (Proc.devRef .tc main_arg7) = (A7 m c) := by
  show StableHlo.after hostOps2 (W5 m ρ c) (Proc.devRef .tc main_arg7) = _
  unfold hostOps2
  after_results
  exact at5_arg7 m ρ c
theorem at6_arg8 : W6 m ρ c (Proc.devRef .tc main_arg8) = (A8 m c) := by
  show StableHlo.after hostOps2 (W5 m ρ c) (Proc.devRef .tc main_arg8) = _
  unfold hostOps2
  after_results
  exact at5_arg8 m ρ c

/-- The first hidden layer. -/
theorem at7_v48 : W7 m ρ c (Proc.devRef .tc main_v48) = val_main_v53 (F := Ideal) (A0 m c) (A1 m c) (A2 m c) (A3 m c) (A4 m c) := by
  refine (W7_arr m ρ c 2).trans ((final2 (V6 m ρ) c).trans ?_)
  show plusRowPos (W6 m ρ c (Proc.devRef .tc main_v46)) (W6 m ρ c (Proc.devRef .tc main_v47)) = _
  rw [at6_v46 m ρ c, at6_v47 m ρ c]
  unfold val_main_v53 val_main_v52 val_main_v51 val_main_v50 val_main_call1_v0 val_main_call1_cst
  exact (ref_plusRowPos _ _).symm

theorem at7_v6 : W7 m ρ c (Proc.devRef .tc main_v6) = val_main_v9 (F := Ideal) (A1 m c) :=
  (W7_of_ne m ρ c main_v6 (by decide)).trans (at6_v6 m ρ c)
theorem at7_v7 : W7 m ρ c (Proc.devRef .tc main_v7) = val_main_v10 (F := Ideal) (A1 m c) :=
  (W7_of_ne m ρ c main_v7 (by decide)).trans (at6_v7 m ρ c)
theorem at7_v32 : W7 m ρ c (Proc.devRef .tc main_v32) = val_main_v35 (F := Ideal) (A1 m c) (A2 m c) :=
  (W7_of_ne m ρ c main_v32 (by decide)).trans (at6_v32 m ρ c)
theorem at7_arg5 : W7 m ρ c (Proc.devRef .tc main_arg5) = (A5 m c) :=
  (W7_of_ne m ρ c main_arg5 (by decide)).trans (at6_arg5 m ρ c)
theorem at7_arg6 : W7 m ρ c (Proc.devRef .tc main_arg6) = (A6 m c) :=
  (W7_of_ne m ρ c main_arg6 (by decide)).trans (at6_arg6 m ρ c)
theorem at7_arg7 : W7 m ρ c (Proc.devRef .tc main_arg7) = (A7 m c) :=
  (W7_of_ne m ρ c main_arg7 (by decide)).trans (at6_arg7 m ρ c)
theorem at7_arg8 : W7 m ρ c (Proc.devRef .tc main_arg8) = (A8 m c) :=
  (W7_of_ne m ρ c main_arg8 (by decide)).trans (at6_arg8 m ρ c)

/-! ## The second layer -/

/-- The transformed hidden layer. -/
theorem at8_v49 : W8 m ρ c (Proc.devRef .tc main_v49) = val_main_v54 (F := Ideal) (A0 m c) (A1 m c) (A2 m c) (A3 m c) (A4 m c) (A5 m c) := by
  refine (W8_arr m ρ c 2).trans ((final3 (V7 m ρ) c).trans ?_)
  show times (W7 m ρ c (Proc.devRef .tc main_v48)) (W7 m ρ c (Proc.devRef .tc main_arg5)) = _
  rw [at7_v48 m ρ c, at7_arg5 m ρ c]
  unfold val_main_v54
  exact (ref_dot_wide _ _).symm

theorem at8_v6 : W8 m ρ c (Proc.devRef .tc main_v6) = val_main_v9 (F := Ideal) (A1 m c) :=
  (W8_of_ne m ρ c main_v6 (by decide)).trans (at7_v6 m ρ c)
theorem at8_v7 : W8 m ρ c (Proc.devRef .tc main_v7) = val_main_v10 (F := Ideal) (A1 m c) :=
  (W8_of_ne m ρ c main_v7 (by decide)).trans (at7_v7 m ρ c)
theorem at8_v32 : W8 m ρ c (Proc.devRef .tc main_v32) = val_main_v35 (F := Ideal) (A1 m c) (A2 m c) :=
  (W8_of_ne m ρ c main_v32 (by decide)).trans (at7_v32 m ρ c)
theorem at8_arg6 : W8 m ρ c (Proc.devRef .tc main_arg6) = (A6 m c) :=
  (W8_of_ne m ρ c main_arg6 (by decide)).trans (at7_arg6 m ρ c)
theorem at8_arg7 : W8 m ρ c (Proc.devRef .tc main_arg7) = (A7 m c) :=
  (W8_of_ne m ρ c main_arg7 (by decide)).trans (at7_arg7 m ρ c)
theorem at8_arg8 : W8 m ρ c (Proc.devRef .tc main_arg8) = (A8 m c) :=
  (W8_of_ne m ρ c main_arg8 (by decide)).trans (at7_arg8 m ρ c)

set_option maxHeartbeats 4000000 in
/-- The second layer's aggregated messages. -/
theorem at9_v62 : W9 m ρ c (Proc.devRef .tc main_v62) = val_main_v67 (F := Ideal) (A0 m c) (A1 m c) (A2 m c) (A3 m c) (A4 m c) (A5 m c) := by
  show StableHlo.after hostOps4 (W8 m ρ c) (Proc.devRef .tc main_v62) = _
  unfold hostOps4
  after_results_simp
  rw [at8_v49 m ρ c, at8_v6 m ρ c, at8_v7 m ρ c, at8_v32 m ρ c]
  rfl

/-- The second bias as a row. -/
theorem at9_v63 : (W9 m ρ c (Proc.devRef .tc main_v63) : Mat 1 128) = asRow (A6 m c) := by
  show StableHlo.after hostOps4 (W8 m ρ c) (Proc.devRef .tc main_v63) = _
  unfold hostOps4
  after_results
  rw [at8_arg6 m ρ c]
  exact reshape_row_wide _

theorem at9_v6 : W9 m ρ c (Proc.devRef .tc main_v6) = val_main_v9 (F := Ideal) (A1 m c) := by
  show StableHlo.after hostOps4 (W8 m ρ c) (Proc.devRef .tc main_v6) = _
  unfold hostOps4
  after_results
  exact at8_v6 m ρ c
theorem at9_v7 : W9 m ρ c (Proc.devRef .tc main_v7) = val_main_v10 (F := Ideal) (A1 m c) := by
  show StableHlo.after hostOps4 (W8 m ρ c) (Proc.devRef .tc main_v7) = _
  unfold hostOps4
  after_results
  exact at8_v7 m ρ c
theorem at9_v32 : W9 m ρ c (Proc.devRef .tc main_v32) = val_main_v35 (F := Ideal) (A1 m c) (A2 m c) := by
  show StableHlo.after hostOps4 (W8 m ρ c) (Proc.devRef .tc main_v32) = _
  unfold hostOps4
  after_results
  exact at8_v32 m ρ c
theorem at9_arg7 : W9 m ρ c (Proc.devRef .tc main_arg7) = (A7 m c) := by
  show StableHlo.after hostOps4 (W8 m ρ c) (Proc.devRef .tc main_arg7) = _
  unfold hostOps4
  after_results
  exact at8_arg7 m ρ c
theorem at9_arg8 : W9 m ρ c (Proc.devRef .tc main_arg8) = (A8 m c) := by
  show StableHlo.after hostOps4 (W8 m ρ c) (Proc.devRef .tc main_arg8) = _
  unfold hostOps4
  after_results
  exact at8_arg8 m ρ c

/-- The second hidden layer. -/
theorem at10_v64 : W10 m ρ c (Proc.devRef .tc main_v64) = val_main_v71 (F := Ideal) (A0 m c) (A1 m c) (A2 m c) (A3 m c) (A4 m c) (A5 m c) (A6 m c) := by
  refine (W10_arr m ρ c 2).trans ((final4 (V9 m ρ) c).trans ?_)
  show plusRowPos (W9 m ρ c (Proc.devRef .tc main_v62)) (W9 m ρ c (Proc.devRef .tc main_v63)) = _
  rw [at9_v62 m ρ c, at9_v63 m ρ c]
  unfold val_main_v71 val_main_v70 val_main_v69 val_main_v68 val_main_call2_v0 val_main_call2_cst
  exact (ref_plusRowPos _ _).symm

theorem at10_v6 : W10 m ρ c (Proc.devRef .tc main_v6) = val_main_v9 (F := Ideal) (A1 m c) :=
  (W10_of_ne m ρ c main_v6 (by decide)).trans (at9_v6 m ρ c)
theorem at10_v7 : W10 m ρ c (Proc.devRef .tc main_v7) = val_main_v10 (F := Ideal) (A1 m c) :=
  (W10_of_ne m ρ c main_v7 (by decide)).trans (at9_v7 m ρ c)
theorem at10_v32 : W10 m ρ c (Proc.devRef .tc main_v32) = val_main_v35 (F := Ideal) (A1 m c) (A2 m c) :=
  (W10_of_ne m ρ c main_v32 (by decide)).trans (at9_v32 m ρ c)
theorem at10_arg7 : W10 m ρ c (Proc.devRef .tc main_arg7) = (A7 m c) :=
  (W10_of_ne m ρ c main_arg7 (by decide)).trans (at9_arg7 m ρ c)
theorem at10_arg8 : W10 m ρ c (Proc.devRef .tc main_arg8) = (A8 m c) :=
  (W10_of_ne m ρ c main_arg8 (by decide)).trans (at9_arg8 m ρ c)

/-! ## The output layer -/

/-- The transformed second hidden layer: one column. -/
theorem at11_v65 : W11 m ρ c (Proc.devRef .tc main_v65) = val_main_v72 (F := Ideal) (A0 m c) (A1 m c) (A2 m c) (A3 m c) (A4 m c) (A5 m c) (A6 m c) (A7 m c) := by
  refine (W11_arr m ρ c 2).trans ((final5 (V10 m ρ) c).trans ?_)
  show times (W10 m ρ c (Proc.devRef .tc main_v64)) (W10 m ρ c (Proc.devRef .tc main_arg7)) = _
  rw [at10_v64 m ρ c, at10_arg7 m ρ c]
  unfold val_main_v72
  exact (ref_dot_col _ _).symm

theorem at11_v6 : W11 m ρ c (Proc.devRef .tc main_v6) = val_main_v9 (F := Ideal) (A1 m c) :=
  (W11_of_ne m ρ c main_v6 (by decide)).trans (at10_v6 m ρ c)
theorem at11_v7 : W11 m ρ c (Proc.devRef .tc main_v7) = val_main_v10 (F := Ideal) (A1 m c) :=
  (W11_of_ne m ρ c main_v7 (by decide)).trans (at10_v7 m ρ c)
theorem at11_v32 : W11 m ρ c (Proc.devRef .tc main_v32) = val_main_v35 (F := Ideal) (A1 m c) (A2 m c) :=
  (W11_of_ne m ρ c main_v32 (by decide)).trans (at10_v32 m ρ c)
theorem at11_arg8 : W11 m ρ c (Proc.devRef .tc main_arg8) = (A8 m c) :=
  (W11_of_ne m ρ c main_arg8 (by decide)).trans (at10_arg8 m ρ c)

set_option maxHeartbeats 4000000 in
/-- The output layer's aggregated messages. -/
theorem at12_v77 : W12 m ρ c (Proc.devRef .tc main_v77) = val_main_v84 (F := Ideal) (A0 m c) (A1 m c) (A2 m c) (A3 m c) (A4 m c) (A5 m c) (A6 m c) (A7 m c) := by
  show StableHlo.after hostOps6 (W11 m ρ c) (Proc.devRef .tc main_v77) = _
  unfold hostOps6
  after_results_simp
  rw [at11_v65 m ρ c, at11_v6 m ρ c, at11_v7 m ρ c, at11_v32 m ρ c]
  rfl

/-- The output bias as a row. -/
theorem at12_v78 : (W12 m ρ c (Proc.devRef .tc main_v78) : Mat 1 1) = asRow (A8 m c) := by
  show StableHlo.after hostOps6 (W11 m ρ c) (Proc.devRef .tc main_v78) = _
  unfold hostOps6
  after_results
  rw [at11_arg8 m ρ c]
  exact reshape_row_col _

/-- The last launch leaves the reference's result. -/
theorem at13_v79 : W13 m ρ c (Proc.devRef .tc main_v79) = val_main_v87 (F := Ideal) (A0 m c) (A1 m c) (A2 m c) (A3 m c) (A4 m c) (A5 m c) (A6 m c) (A7 m c) (A8 m c) := by
  refine (W13_arr m ρ c 2).trans ((final6 (V12 m ρ) c).trans ?_)
  show plusRow (W12 m ρ c (Proc.devRef .tc main_v77)) (W12 m ρ c (Proc.devRef .tc main_v78)) = _
  rw [at12_v77 m ρ c, at12_v78 m ρ c]
  unfold val_main_v87 val_main_v86 val_main_v85
  exact (ref_plusRow _ _).symm

end Cert.KernelIdeal.Chain

end
-- ==== Proof.lean ====
/- The proof of `Cert.Claim`: a three-layer graph convolution network on 100000 nodes whose dense stages run as tiled kernel
   launches, against the same network written with whole-array operations.

   Both programs normalize every feature row by its sum, build the same edge lists (the given edges and one self loop per
   node) and the same symmetric edge normalization from the in-degrees, and then three times transform the node matrix by a
   weight matrix, gather the transformed rows along the source nodes, scale them by the edge norm, sum them onto the target
   nodes and add a bias; the first two layers end with the positive part. The sparse steps are host operations in both
   programs, the same ones in the same order, so they are equal as soon as their operands are. The dense steps differ only in
   how they are cut: the kernel program computes them on ten blocks of 10000 rows, the reference on the whole matrix. Dividing
   a row by its sum, multiplying rows by a matrix, and adding a row vector (with or without the positive part) all treat every
   row by itself, so the blocks put together are the whole-array operation. Over the extended reals a change of float format
   is the identity, the matrix unit's product into a zero accumulator and the host's product are the same finite sum, and the
   lane sum of a row and the host's row sum from zero are the same finite sum. No distributive law is used, so finiteness of
   the inputs is not needed for the equality.

   The three frame claims are the generated frame theorems (the reference's is its run with the result dropped); nothing was
   rewritten by the idealization, so that claim is trivial. -/
import proofs.«117698_j34600256536636_1_alg».proof.Defs
import proofs.«117698_j34600256536636_1_alg».proof.Proof.Gen.Kernel
import proofs.«117698_j34600256536636_1_alg».proof.Proof.Gen.Kernel.Skeleton
import proofs.«117698_j34600256536636_1_alg».proof.Proof.Gen.Kernel.Launch
import proofs.«117698_j34600256536636_1_alg».proof.Proof.Gen.Kernel.Points
import proofs.«117698_j34600256536636_1_alg».proof.Proof.Gen.Kernel.Frame
import proofs.«117698_j34600256536636_1_alg».proof.Proof.Gen.KernelIdeal
import proofs.«117698_j34600256536636_1_alg».proof.Proof.Gen.KernelIdeal.Skeleton
import proofs.«117698_j34600256536636_1_alg».proof.Proof.Gen.KernelIdeal.Launch
import proofs.«117698_j34600256536636_1_alg».proof.Proof.Gen.KernelIdeal.Points
import proofs.«117698_j34600256536636_1_alg».proof.Proof.Gen.KernelIdeal.Frame
import proofs.«117698_j34600256536636_1_alg».proof.Proof.Gen.ReferenceIdeal
import proofs.«117698_j34600256536636_1_alg».proof.Proof.Gen.ReferenceIdeal.Run
import proofs.«117698_j34600256536636_1_alg».proof.Proof.Gen.ReferenceIdeal.Read
import proofs.«117698_j34600256536636_1_alg».proof.Proof.Gen.Pre_finite_inputs
import proofs.«117698_j34600256536636_1_alg».proof.Proof.KernelRun
import proofs.«117698_j34600256536636_1_alg».proof.Proof.Chain
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the nine arguments both programs end with the reference's last stage, read as a function
    of the arguments: the kernel program by the fold of its buffer contents, the reference by its run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v87 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.at13_v79 m ρ c), (h c).2⟩)
      (Cert.KernelIdeal.Whole.run_fold (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v87_eq]
    obtain ⟨e0, e1, e2, e3, e4, e5, e6, e7, e8⟩ := hagree c
    rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
